-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 104
  | .vmem => 31
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x1250000, .i32⟩
  | .hbm, ⟨16, _⟩ => ⟨S1250000, .i32⟩
  | .hbm, ⟨17, _⟩ => ⟨S1x1250000, .i32⟩
  | .hbm, ⟨18, _⟩ => ⟨S1250000, .i32⟩
  | .hbm, ⟨19, _⟩ => ⟨S_, .i32⟩
  | .hbm, ⟨20, _⟩ => ⟨S1250000, .i32⟩
  | .hbm, ⟨21, _⟩ => ⟨S1250000, .i1⟩
  | .hbm, ⟨22, _⟩ => ⟨S_, .i32⟩
  | .hbm, ⟨23, _⟩ => ⟨S1250000, .i32⟩
  | .hbm, ⟨24, _⟩ => ⟨S1250000, .i32⟩
  | .hbm, ⟨25, _⟩ => ⟨S1250000, .i32⟩
  | .hbm, ⟨26, _⟩ => ⟨S1250000x1, .i32⟩
  | .hbm, ⟨27, _⟩ => ⟨S1250000x64, .f32⟩
  | .hbm, ⟨28, _⟩ => ⟨S_, .f32⟩
  | .hbm, ⟨29, _⟩ => ⟨S100000x64, .f32⟩
  | .hbm, ⟨30, _⟩ => ⟨S1250000x1, .i32⟩
  | .hbm, ⟨31, _⟩ => ⟨S100000x64, .f32⟩
  | .hbm, ⟨32, _⟩ => ⟨S_, .f32⟩
  | .hbm, ⟨33, _⟩ => ⟨S1250000, .f32⟩
  | .hbm, ⟨34, _⟩ => ⟨S_, .f32⟩
  | .hbm, ⟨35, _⟩ => ⟨S100000, .f32⟩
  | .hbm, ⟨36, _⟩ => ⟨S1250000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S_, .f32⟩
  | .hbm, ⟨58, _⟩ => ⟨S100000x64, .f32⟩
  | .hbm, ⟨59, _⟩ => ⟨S1250000x1, .i32⟩
  | .hbm, ⟨60, _⟩ => ⟨S100000x64, .f32⟩
  | .hbm, ⟨61, _⟩ => ⟨S_, .f32⟩
  | .hbm, ⟨62, _⟩ => ⟨S1250000, .f32⟩
  | .hbm, ⟨63, _⟩ => ⟨S_, .f32⟩
  | .hbm, ⟨64, _⟩ => ⟨S100000, .f32⟩
  | .hbm, ⟨65, _⟩ => ⟨S1250000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S100000x64, .f32⟩
  | .hbm, ⟨77, _⟩ => ⟨S_, .i32⟩
  | .hbm, ⟨78, _⟩ => ⟨S1250000, .i32⟩
  | .hbm, ⟨79, _⟩ => ⟨S1250000, .i1⟩
  | .hbm, ⟨80, _⟩ => ⟨S_, .i32⟩
  | .hbm, ⟨81, _⟩ => ⟨S1250000, .i32⟩
  | .hbm, ⟨82, _⟩ => ⟨S1250000, .i32⟩
  | .hbm, ⟨83, _⟩ => ⟨S1250000, .i32⟩
  | .hbm, ⟨84, _⟩ => ⟨S1250000x1, .i32⟩
  | .hbm, ⟨85, _⟩ => ⟨S1250000x64, .f32⟩
  | .hbm, ⟨86, _⟩ => ⟨S_, .f32⟩
  | .hbm, ⟨87, _⟩ => ⟨S100000x64, .f32⟩
  | .hbm, ⟨88, _⟩ => ⟨S1250000x1, .i32⟩
  | .hbm, ⟨89, _⟩ => ⟨S100000x64, .f32⟩
  | .hbm, ⟨90, _⟩ => ⟨S_, .f32⟩
  | .hbm, ⟨91, _⟩ => ⟨S1250000, .f32⟩
  | .hbm, ⟨92, _⟩ => ⟨S_, .f32⟩
  | .hbm, ⟨93, _⟩ => ⟨S100000, .f32⟩
  | .hbm, ⟨94, _⟩ => ⟨S1250000x1, .i32⟩
  | .hbm, ⟨95, _⟩ => ⟨S100000, .f32⟩
  | .hbm, ⟨96, _⟩ => ⟨S_, .f32⟩
  | .hbm, ⟨97, _⟩ => ⟨S100000, .f32⟩
  | .hbm, ⟨98, _⟩ => ⟨S100000, .f32⟩
  | .hbm, ⟨99, _⟩ => ⟨S100000x1, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S64x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S10000x64, .f32⟩
  | .local _ .vmem, ⟨30, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_cst_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 189
  | .vmem => 0
  | .smem => 0
  | _ => 0

abbrev hbmTy0_0 (i : Nat) : BufTy := match i % 128 with
  | 0 => ⟨S100000x64, .f32⟩
  | 1 => ⟨S2x1250000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S1x1250000, .i32⟩
  | 16 => ⟨S1250000, .i32⟩
  | 17 => ⟨S1x1250000, .i32⟩
  | 18 => ⟨S1250000, .i32⟩
  | 19 => ⟨S_, .i32⟩
  | 20 => ⟨S1250000, .i32⟩
  | 21 => ⟨S1250000, .i1⟩
  | 22 => ⟨S_, .i32⟩
  | 23 => ⟨S1250000, .i32⟩
  | 24 => ⟨S1250000, .i32⟩
  | 25 => ⟨S1250000, .i32⟩
  | 26 => ⟨S1250000x1, .i32⟩
  | 27 => ⟨S1250000x64, .f32⟩
  | 28 => ⟨S_, .f32⟩
  | 29 => ⟨S100000x64, .f32⟩
  | 30 => ⟨S1250000x1, .i32⟩
  | 31 => ⟨S100000x64, .f32⟩
  | 32 => ⟨S_, .f32⟩
  | 33 => ⟨S1250000, .f32⟩
  | 34 => ⟨S_, .f32⟩
  | 35 => ⟨S100000, .f32⟩
  | 36 => ⟨S1250000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S100000x64, .f32⟩
  | 49 => ⟨S100000x64, .f32⟩
  | 50 => ⟨S_, .f32⟩
  | 51 => ⟨S100000, .f32⟩
  | 52 => ⟨S100000x1, .f32⟩
  | 53 => ⟨S_, .f32⟩
  | 54 => ⟨S100000x1, .f32⟩
  | 55 => ⟨S100000x1, .f32⟩
  | 56 => ⟨S100000x64, .f32⟩
  | 57 => ⟨S100000x64, .f32⟩
  | 58 => ⟨S100000x64, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x64, .f32⟩
  | 66 => ⟨S100000x64, .f32⟩
  | 67 => ⟨S_, .f32⟩
  | 68 => ⟨S100000x1, .f32⟩
  | 69 => ⟨S100000x1, .f32⟩
  | 70 => ⟨S100000x1, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .i32⟩
  | 84 => ⟨S1250000, .i32⟩
  | 85 => ⟨S1250000, .i1⟩
  | 86 => ⟨S_, .i32⟩
  | 87 => ⟨S1250000, .i32⟩
  | 88 => ⟨S1250000, .i32⟩
  | 89 => ⟨S1250000, .i32⟩
  | 90 => ⟨S1250000x1, .i32⟩
  | 91 => ⟨S1250000x64, .f32⟩
  | 92 => ⟨S_, .f32⟩
  | 93 => ⟨S100000x64, .f32⟩
  | 94 => ⟨S1250000x1, .i32⟩
  | 95 => ⟨S100000x64, .f32⟩
  | 96 => ⟨S_, .f32⟩
  | 97 => ⟨S1250000, .f32⟩
  | 98 => ⟨S_, .f32⟩
  | 99 => ⟨S100000, .f32⟩
  | 100 => ⟨S1250000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S100000, .f32⟩
  | 116 => ⟨S100000x1, .f32⟩
  | 117 => ⟨S_, .f32⟩
  | 118 => ⟨S100000x1, .f32⟩
  | 119 => ⟨S100000x1, .f32⟩
  | 120 => ⟨S100000x64, .f32⟩
  | 121 => ⟨S100000x64, .f32⟩
  | 122 => ⟨S100000x64, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S100000x64, .f32⟩

abbrev hbmTy0_1 (i : Nat) : BufTy := match i % 128 with
  | 0 => ⟨S100000x1, .f32⟩
  | 1 => ⟨S100000x64, .f32⟩
  | 2 => ⟨S100000x64, .f32⟩
  | 3 => ⟨S_, .f32⟩
  | 4 => ⟨S100000x1, .f32⟩
  | 5 => ⟨S100000x1, .f32⟩
  | 6 => ⟨S100000x1, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S100000x64, .f32⟩
  | 19 => ⟨S_, .i32⟩
  | 20 => ⟨S1250000, .i32⟩
  | 21 => ⟨S1250000, .i1⟩
  | 22 => ⟨S_, .i32⟩
  | 23 => ⟨S1250000, .i32⟩
  | 24 => ⟨S1250000, .i32⟩
  | 25 => ⟨S1250000, .i32⟩
  | 26 => ⟨S1250000x1, .i32⟩
  | 27 => ⟨S1250000x64, .f32⟩
  | 28 => ⟨S_, .f32⟩
  | 29 => ⟨S100000x64, .f32⟩
  | 30 => ⟨S1250000x1, .i32⟩
  | 31 => ⟨S100000x64, .f32⟩
  | 32 => ⟨S_, .f32⟩
  | 33 => ⟨S1250000, .f32⟩
  | 34 => ⟨S_, .f32⟩
  | 35 => ⟨S100000, .f32⟩
  | 36 => ⟨S1250000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S_, .f32⟩
  | 53 => ⟨S100000, .f32⟩
  | 54 => ⟨S100000x1, .f32⟩
  | 55 => ⟨S100000x1, .f32⟩
  | 56 => ⟨S_, .f32⟩
  | 57 => ⟨S100000x1, .f32⟩
  | 58 => ⟨S100000x1, .f32⟩
  | 59 => ⟨S100000x64, .f32⟩
  | 60 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call0_cst : Ref sig .tc := ⟨.hbm, 79, rfl⟩
abbrev main_call0_v0 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_19 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call1_cst : Ref sig .tc := ⟨.hbm, 143, rfl⟩
abbrev main_call1_v0 : Ref sig .tc := ⟨.hbm, 144, rfl⟩
abbrev main_v104 : Ref sig .tc := ⟨.hbm, 145, rfl⟩
abbrev main_v105 : Ref sig .tc := ⟨.hbm, 146, rfl⟩
abbrev main_c_20 : Ref sig .tc := ⟨.hbm, 147, rfl⟩
abbrev main_v106 : Ref sig .tc := ⟨.hbm, 148, rfl⟩
abbrev main_v107 : Ref sig .tc := ⟨.hbm, 149, rfl⟩
abbrev main_c_21 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_22 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_23 : Ref sig .tc := ⟨.hbm, 160, rfl⟩
abbrev main_v116 : Ref sig .tc := ⟨.hbm, 161, rfl⟩
abbrev main_cst_24 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_25 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_26 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_27 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The idealized kernel's whole run, with the result read.

  @main is three regions among three stretches of host operations. Run from any memory with zero counters, every
  weakly fair execution terminates without a fault, and in every final state the result buffer holds what the last
  boundary's contents give it (the fold of the stretches' operations and the regions' write-backs over the launch
  memory), and every argument array is as launched.
-/
import proofs.«170888_j42030549959220_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the six segments, the last thread state read against the final state: the result buffer at the last
    boundary's contents, each argument as launched. -/
theorem run_result : θ_run defs (onTc (τ := τ) (main (F := F))) ⟨m, fun _ => 0, ρ⟩ (fun r => ∀ c : Dev nD,
      r.2.mem ((c.tc : Thread nD τ).loc main_v70) = W6 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v70 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.Whole

end
-- ==== Proof.SageSpec.lean ====
/-
  One layer of a mean-aggregation graph network, read entry by entry on the extended reals.

  For an [n, 64] array h of node features and an [n, 64] array a of neighbourhood means, the PRE-ACTIVATION entry
  (p, q) is (Σₖ a(p, k)·Wl(k, q) + bl(q)) + Σₖ h(p, k)·Wr(k, q).  A MIDDLE layer normalises each row of the
  pre-activation (subtract the row's mean, multiply by the reciprocal square root of the row's variance plus a
  small offset, scale by g and shift by b), takes the maximum with zero and adds h back.  The LAST layer adds h back
  to the pre-activation and divides each row by its Euclidean length, bounded below by a small positive number.
  Every entry of either layer reads row p of h and of a only, so a block of rows of the result is the layer of the
  corresponding block of rows.
-/
import Idealize.ShloMosaic.Lib.ValueIdx
import Idealize.ShloMosaic.PureOps.Ideal

noncomputable section

open scoped BigOperators

namespace Cert.Sage

open Idealize.ShloMosaic Idealize.ShloMosaic.ValueIdx

/-- The row length 64 as a float. -/
abbrev cnt : EReal := Ideal.ofBits .f32 0x42800000#32
/-- The offset under the reciprocal square root. -/
abbrev epsN : EReal := Ideal.ofBits .f32 0x3727C5AC#32
/-- The lower bound of a row's length. -/
abbrev epsL : EReal := Ideal.ofBits .f32 0x2B8CBCCC#32
/-- Zero as a float. -/
abbrev fzero : EReal := Ideal.ofBits .f32 0x00000000#32

abbrev Mat (a b : Nat) : Type := (⟨2, ![a, b]⟩ : Shape).Idx → EReal

variable {n : Nat}

/-- The pre-activation entry (p, q). -/
def pre (h a : Mat n 64) (wl wr : Mat 64 64) (bl : Fin 64 → EReal) (p : Fin n) (q : Fin 64) : EReal :=
  ((∑ k : Fin 64, a (ix2 p k) * wl (ix2 k q)) + bl q) + ∑ k : Fin 64, h (ix2 p k) * wr (ix2 k q)

/-- The mean of a row of 64 entries. -/
def rowMean (v : Fin 64 → EReal) : EReal := Ideal.div (∑ k : Fin 64, v k) cnt

/-- The variance of a row: the mean of the squared deviations from the row's mean. -/
def rowVar (v : Fin 64 → EReal) : EReal :=
  Ideal.div (∑ k : Fin 64, (v k - rowMean v) * (v k - rowMean v)) cnt

/-- The normalised entry q of a row, scaled by g and shifted by b. -/
def normed (v g b : Fin 64 → EReal) (q : Fin 64) : EReal :=
  ((v q - rowMean v) * Ideal.rsqrt (rowVar v + epsN)) * g q + b q

/-- Entry (p, q) of a middle layer. -/
def midEntry (h a : Mat n 64) (wl wr : Mat 64 64) (bl g b : Fin 64 → EReal) (p : Fin n) (q : Fin 64) : EReal :=
  max (normed (pre h a wl wr bl p) g b q) fzero + h (ix2 p q)

/-- Entry (p, q) of the last layer before the rows are scaled: the pre-activation plus h. -/
def resid (h a : Mat n 64) (wl wr : Mat 64 64) (bl : Fin 64 → EReal) (p : Fin n) (q : Fin 64) : EReal :=
  pre h a wl wr bl p q + h (ix2 p q)

/-- The length of row p of the last layer, bounded below. -/
def rowLen (h a : Mat n 64) (wl wr : Mat 64 64) (bl : Fin 64 → EReal) (p : Fin n) : EReal :=
  max (Ideal.sqrt (∑ k : Fin 64, resid h a wl wr bl p k * resid h a wl wr bl p k)) epsL

/-- Entry (p, q) of the last layer. -/
def finEntry (h a : Mat n 64) (wl wr : Mat 64 64) (bl : Fin 64 → EReal) (p : Fin n) (q : Fin 64) : EReal :=
  Ideal.div (resid h a wl wr bl p q) (rowLen h a wl wr bl p)

/-- A middle layer as one array. -/
def midLayer (h a : Mat n 64) (wl wr : Mat 64 64) (bl g b : Fin 64 → EReal) : Mat n 64 :=
  fun i => midEntry h a wl wr bl g b (i 0) (i 1)

/-- The last layer as one array. -/
def finLayer (h a : Mat n 64) (wl wr : Mat 64 64) (bl : Fin 64 → EReal) : Mat n 64 :=
  fun i => finEntry h a wl wr bl (i 0) (i 1)

/-! ## Each entry reads its own row only -/

variable {n' : Nat}

theorem pre_congr (h a : Mat n 64) (h' a' : Mat n' 64) (wl wr : Mat 64 64) (bl : Fin 64 → EReal) (p : Fin n) (p' : Fin n')
    (hh : ∀ k, h (ix2 p k) = h' (ix2 p' k)) (ha : ∀ k, a (ix2 p k) = a' (ix2 p' k)) :
    pre h a wl wr bl p = pre h' a' wl wr bl p' := by
  funext q
  unfold pre
  simp only [hh, ha]

theorem midEntry_congr (h a : Mat n 64) (h' a' : Mat n' 64) (wl wr : Mat 64 64) (bl g b : Fin 64 → EReal) (p : Fin n)
    (p' : Fin n') (hh : ∀ k, h (ix2 p k) = h' (ix2 p' k)) (ha : ∀ k, a (ix2 p k) = a' (ix2 p' k)) (q : Fin 64) :
    midEntry h a wl wr bl g b p q = midEntry h' a' wl wr bl g b p' q := by
  unfold midEntry
  rw [pre_congr h a h' a' wl wr bl p p' hh ha, hh q]

theorem finEntry_congr (h a : Mat n 64) (h' a' : Mat n' 64) (wl wr : Mat 64 64) (bl : Fin 64 → EReal) (p : Fin n)
    (p' : Fin n') (hh : ∀ k, h (ix2 p k) = h' (ix2 p' k)) (ha : ∀ k, a (ix2 p k) = a' (ix2 p' k)) (q : Fin 64) :
    finEntry h a wl wr bl p q = finEntry h' a' wl wr bl p' q := by
  have hr : resid h a wl wr bl p = resid h' a' wl wr bl p' := by
    funext k
    unfold resid
    rw [pre_congr h a h' a' wl wr bl p p' hh ha, hh k]
  unfold finEntry rowLen
  rw [hr]

/-! ## Two laws of the extended reals -/

/-- Three summands added in the other order: sums of extended reals commute and associate. -/
theorem add_order (x y z : EReal) : (x + z) + y = (x + y) + z := add_right_comm x z y

/-- The product with the reciprocal of a non-zero divisor is the quotient. -/
theorem mul_one_div (x m one : EReal) (h1 : one = 1) (hm : m ≠ 0) : x * Ideal.div one m = Ideal.div x m := by
  subst h1
  unfold Ideal.div
  rw [if_neg hm, if_neg hm, one_mul]

end Cert.Sage

end
-- ==== Proof.LibRealPatterns.lean ====
/-
  Float patterns and finite sums as real numbers inside the extended reals.

  An IEEE-style pattern whose exponent field is not all ones denotes a real number, and a positive one when moreover
  its sign bit is clear and its exponent field is not zero (a normal number). The inclusion of the reals into the
  extended reals commutes with finite sums and with the maximum, so an expression built from real entries by sums,
  products and maxima is again the inclusion of a real.
-/
import Idealize.ShloMosaic.PureOps.Ideal
import Mathlib.Algebra.BigOperators.Fin

noncomputable section

namespace Cert.Lib.RealPatterns

open Idealize.ShloMosaic

/-- The inclusion of the reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The inclusion of the reals commutes with the maximum. -/
theorem coe_max (a b : ℝ) : ((max a b : ℝ) : EReal) = max (a : EReal) (b : EReal) :=
  EReal.coe_strictMono.monotone.map_max

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split_ifs <;> exact ⟨_, rfl⟩

/-- A pattern with sign bit clear and exponent field neither zero nor all ones denotes a positive real. -/
theorem ieee_pos (e m : Nat) {w : Nat} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h1, if_neg h0, hs]
  refine ⟨_, ?_, rfl⟩
  simp only [Bool.false_eq_true, if_false, one_mul]
  positivity

end Cert.Lib.RealPatterns

end
-- ==== Proof.SageConsts.lean ====
/-
  Two float literals as extended reals: the pattern of 1.0 is the number one, and the lower bound of a row's length
  (about 1e-12) is a positive real number — so a maximum with it is never zero.
-/
import proofs.«170888_j42030549959220_1_alg».proof.Proof.SageSpec
import proofs.«170888_j42030549959220_1_alg».proof.Proof.LibRealPatterns

noncomputable section

namespace Cert.Sage

open Idealize.ShloMosaic

/-- The pattern of 1.0 denotes one. -/
theorem one_eq : Ideal.ofBits .f32 0x3F800000#32 = 1 := by
  simp [Ideal.ofBits, Ideal.ieee]
  exact_mod_cast (by norm_num : ((8388608 : ℝ) * ((2 : ℝ) ^ 23)⁻¹ = 1))

/-- The lower bound of a row's length is positive. -/
theorem epsL_pos : 0 < epsL := by
  obtain ⟨r, hr, e⟩ := Cert.Lib.RealPatterns.ieee_pos 8 23 (0x2B8CBCCC#32 : BitVec 32) (by decide) (by decide) (by decide)
  show 0 < Ideal.ieee 8 23 (0x2B8CBCCC#32 : BitVec 32)
  rw [e]
  exact_mod_cast hr

/-- A maximum with the lower bound is not zero. -/
theorem max_epsL_ne_zero (s : EReal) : max s epsL ≠ 0 :=
  (lt_max_of_lt_right epsL_pos).ne'

end Cert.Sage

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«170888_j42030549959220_1_alg».proof.Proof.LibDotEntry
import proofs.«170888_j42030549959220_1_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.KPay.lean ====
/-
  What each of the three kernels stores, read at an entry.

  A kernel's body takes a block of 10000 rows of node features and of neighbourhood means, the two 64×64 weight
  matrices and the length-64 vectors laid out as [1, 64] rows, and stores one [10000, 64] block. Entry (p, q) of the
  block a middle layer's kernel stores is the middle layer's entry (p, q) of the two row blocks; entry (p, q) of the
  block the last kernel stores is the last layer's. Two laws join the kernel's spelling to the layer's: the kernel
  adds the bias after both matrix products where the layer adds it after the first (sums of extended reals may be
  taken in either order), and the last kernel multiplies by the reciprocal 1/len where the layer divides by len (the
  same on every extended real, len being at least a positive real number).
-/
import proofs.«170888_j42030549959220_1_alg».proof.Proof.Gen.KernelIdeal.Frame
import proofs.«170888_j42030549959220_1_alg».proof.Proof.SageConsts
import proofs.«170888_j42030549959220_1_alg».proof.Proof.LibDenseLayer
import proofs.«170888_j42030549959220_1_alg».proof.Proof.LibRowOps
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.TcCoe Idealize.SL.Sem
open Idealize.ShloMosaic.ValueIdx Cert.Sage

/-- The offset of a rectangle that starts at the origin. -/
theorem hz : (![0, 0] : Fin 2 → Nat) = fun _ => 0 := funext fun a => by fin_cases a <;> rfl

/-- The kernels' matrix product contracts the left factor's columns against the right factor's rows. -/
theorem dotIs : Cert.Lib.DenseLayer.IsMatProduct dot_S10000x64_S64x64_S10000x64_1_0_0_1_n_n := ⟨rfl, rfl, rfl, rfl, rfl, rfl⟩

theorem rsqrt_apply {s : Shape} {φ : FTy} (v : FVec Ideal s φ) (i : s.Idx) : rsqrt v i = Ideal.rsqrt (v i) := rfl
theorem sqrt_apply {s : Shape} {φ : FTy} (v : FVec Ideal s φ) (i : s.Idx) : sqrt v i = Ideal.sqrt (v i) := rfl
theorem scalar_ofBits (b : BitVec 32) : (Scalar.ofBits .f32 b : Ideal .f32) = Ideal.ofBits .f32 b := rfl

/-- A lane sum of an [a, b] block from the zero pattern, read at row p: the sum of the row's entries. -/
theorem lane_sum {a b : Nat} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) :=
  Cert.Lib.RowOps.multiReduction_add_lanes src 0x00000000#32 h hφ hacc p

/-- Entry (p, q) of the block the first middle layer's kernel stores. -/
theorem out0_7_entry (x0 x1 : Vec Ideal S10000x64 .f32) (x2 : Vec Ideal S64x64 .f32) (x3 : Vec Ideal S1x64 .f32)
    (x4 : Vec Ideal S64x64 .f32) (x5 x6 : Vec Ideal S1x64 .f32) (p : Fin 10000) (q : Fin 64) :
    out0_7 (F := Ideal) x0 x1 x2 x3 x4 x5 x6 (ix2 p q)
      = midEntry (n := 10000) x0 x1 x2 x4 (fun j => x3 (ix2 (0 : Fin 1) j)) (fun j => x5 (ix2 (0 : Fin 1) j))
          (fun j => x6 (ix2 (0 : Fin 1) j)) p q := by
  unfold out0_7
  rw [View.canon_unit_zero hz]
  simp only [View.ld_unit_zero (S := S10000x64) hz, View.ld_unit_zero (S := S64x64) hz, View.ld_unit_zero (S := S1x64) hz]
  unfold k0_pay1 k0_pay2 k0_pay3
  dsimp only
  simp only [addf_apply, subf_apply, mulf_apply, divf_apply, maximumf_apply, truncf_apply, broadcast_apply, rsqrt_apply, sqrt_apply,
    scalar_ofBits, shapeCast_self, Cert.Lib.DenseLayer.matmul_entry dotIs, broadcastTo_1b_ab_apply,
    Cert.Lib.RowOps.broadcastTo_a1_ab_apply, Cert.Lib.RowOps.shapeCast_a_a1_apply]
  repeat rw [lane_sum]
  simp only [addf_apply, subf_apply, mulf_apply, divf_apply, maximumf_apply, truncf_apply, broadcast_apply, rsqrt_apply, sqrt_apply,
    scalar_ofBits, shapeCast_self, Cert.Lib.DenseLayer.matmul_entry dotIs, broadcastTo_1b_ab_apply,
    Cert.Lib.RowOps.broadcastTo_a1_ab_apply, Cert.Lib.RowOps.shapeCast_a_a1_apply]
  repeat rw [lane_sum]
  simp only [addf_apply, subf_apply, mulf_apply, divf_apply, maximumf_apply, truncf_apply, broadcast_apply, rsqrt_apply, sqrt_apply,
    scalar_ofBits, shapeCast_self, Cert.Lib.DenseLayer.matmul_entry dotIs, broadcastTo_1b_ab_apply,
    Cert.Lib.RowOps.broadcastTo_a1_ab_apply, Cert.Lib.RowOps.shapeCast_a_a1_apply]
  have hc : ∀ k : Fin 64, (∑ j : Fin 64, x1 (ix2 p j) * x2 (ix2 j k)) + (∑ j : Fin 64, x0 (ix2 p j) * x4 (ix2 j k)) + x3 (ix2 (0 : Fin 1) k)
      = pre (n := 10000) x0 x1 x2 x4 (fun j => x3 (ix2 (0 : Fin 1) j)) p k := fun k => add_order _ _ _
  simp only [hc]
  rfl

/-- Entry (p, q) of the block the second middle layer's kernel stores. -/
theorem out1_7_entry (x0 x1 : Vec Ideal S10000x64 .f32) (x2 : Vec Ideal S64x64 .f32) (x3 : Vec Ideal S1x64 .f32)
    (x4 : Vec Ideal S64x64 .f32) (x5 x6 : Vec Ideal S1x64 .f32) (p : Fin 10000) (q : Fin 64) :
    out1_7 (F := Ideal) x0 x1 x2 x3 x4 x5 x6 (ix2 p q)
      = midEntry (n := 10000) x0 x1 x2 x4 (fun j => x3 (ix2 (0 : Fin 1) j)) (fun j => x5 (ix2 (0 : Fin 1) j))
          (fun j => x6 (ix2 (0 : Fin 1) j)) p q := by
  unfold out1_7
  rw [View.canon_unit_zero hz]
  simp only [View.ld_unit_zero (S := S10000x64) hz, View.ld_unit_zero (S := S64x64) hz, View.ld_unit_zero (S := S1x64) hz]
  unfold k1_pay1 k1_pay3 k1_pay2
  dsimp only
  simp only [addf_apply, subf_apply, mulf_apply, divf_apply, maximumf_apply, truncf_apply, broadcast_apply, rsqrt_apply, sqrt_apply,
    scalar_ofBits, shapeCast_self, Cert.Lib.DenseLayer.matmul_entry dotIs, broadcastTo_1b_ab_apply,
    Cert.Lib.RowOps.broadcastTo_a1_ab_apply, Cert.Lib.RowOps.shapeCast_a_a1_apply]
  repeat rw [lane_sum]
  simp only [addf_apply, subf_apply, mulf_apply, divf_apply, maximumf_apply, truncf_apply, broadcast_apply, rsqrt_apply, sqrt_apply,
    scalar_ofBits, shapeCast_self, Cert.Lib.DenseLayer.matmul_entry dotIs, broadcastTo_1b_ab_apply,
    Cert.Lib.RowOps.broadcastTo_a1_ab_apply, Cert.Lib.RowOps.shapeCast_a_a1_apply]
  repeat rw [lane_sum]
  simp only [addf_apply, subf_apply, mulf_apply, divf_apply, maximumf_apply, truncf_apply, broadcast_apply, rsqrt_apply, sqrt_apply,
    scalar_ofBits, shapeCast_self, Cert.Lib.DenseLayer.matmul_entry dotIs, broadcastTo_1b_ab_apply,
    Cert.Lib.RowOps.broadcastTo_a1_ab_apply, Cert.Lib.RowOps.shapeCast_a_a1_apply]
  have hc : ∀ k : Fin 64, (∑ j : Fin 64, x1 (ix2 p j) * x2 (ix2 j k)) + (∑ j : Fin 64, x0 (ix2 p j) * x4 (ix2 j k)) + x3 (ix2 (0 : Fin 1) k)
      = pre (n := 10000) x0 x1 x2 x4 (fun j => x3 (ix2 (0 : Fin 1) j)) p k := fun k => add_order _ _ _
  simp only [hc]
  rfl

/-- Entry (p, q) of the block the last layer's kernel stores. -/
theorem out2_5_entry (x0 x1 : Vec Ideal S10000x64 .f32) (x2 : Vec Ideal S64x64 .f32) (x3 : Vec Ideal S1x64 .f32)
    (x4 : Vec Ideal S64x64 .f32) (p : Fin 10000) (q : Fin 64) :
    out2_5 (F := Ideal) x0 x1 x2 x3 x4 (ix2 p q)
      = finEntry (n := 10000) x0 x1 x2 x4 (fun j => x3 (ix2 (0 : Fin 1) j)) p q := by
  unfold out2_5
  rw [View.canon_unit_zero hz]
  simp only [View.ld_unit_zero (S := S10000x64) hz, View.ld_unit_zero (S := S64x64) hz, View.ld_unit_zero (S := S1x64) hz]
  unfold k2_pay1
  dsimp only
  simp only [addf_apply, subf_apply, mulf_apply, divf_apply, maximumf_apply, truncf_apply, broadcast_apply, rsqrt_apply, sqrt_apply,
    scalar_ofBits, shapeCast_self, Cert.Lib.DenseLayer.matmul_entry dotIs, broadcastTo_1b_ab_apply,
    Cert.Lib.RowOps.broadcastTo_a1_ab_apply, Cert.Lib.RowOps.shapeCast_a_a1_apply]
  repeat rw [lane_sum]
  simp only [addf_apply, subf_apply, mulf_apply, divf_apply, maximumf_apply, truncf_apply, broadcast_apply, rsqrt_apply, sqrt_apply,
    scalar_ofBits, shapeCast_self, Cert.Lib.DenseLayer.matmul_entry dotIs, broadcastTo_1b_ab_apply,
    Cert.Lib.RowOps.broadcastTo_a1_ab_apply, Cert.Lib.RowOps.shapeCast_a_a1_apply]
  have hc : ∀ k : Fin 64, (∑ j : Fin 64, x1 (ix2 p j) * x2 (ix2 j k)) + (∑ j : Fin 64, x0 (ix2 p j) * x4 (ix2 j k)) + x3 (ix2 (0 : Fin 1) k)
      = pre (n := 10000) x0 x1 x2 x4 (fun j => x3 (ix2 (0 : Fin 1) j)) p k := fun k => add_order _ _ _
  simp only [hc]
  unfold finEntry rowLen resid
  exact mul_one_div _ _ _ one_eq (max_epsL_ne_zero _)

end Cert.KernelIdeal.Pay

end
-- ==== Proof.KBlocks.lean ====
/-
  From blocks to arrays: each kernel's output array after its region is the layer of the arrays the region found.

  A region runs its kernel at ten grid points; point t reads rows 10000·t … 10000·t + 9999 of the node features and
  of the neighbourhood means, the whole weight matrices and the whole [1, 64] rows, and writes back rows
  10000·t … 10000·t + 9999 of the output. Since an entry of a layer reads its own row only, what point t writes
  back is block t of the layer of the whole arrays, and the ten blocks tile the output array.
-/
import proofs.«170888_j42030549959220_1_alg».proof.Proof.KPay

noncomputable section

namespace Cert.KernelIdeal.Blocks

open Cert.KernelIdeal Cert.KernelIdeal.Gen Idealize.ShloMosaic Idealize.ShloMosaic.TcCoe Idealize.SL.Sem
open Idealize.ShloMosaic.ValueIdx Cert.Sage Cert.KernelIdeal.Pay
open Idealize.ShloMosaic.Pipeline (Dat Cfg Window)

variable (V : (c : Dev nD) → (b : Ref sig .tc) → Buf (Elt Ideal) ((c : Thread nD τ).loc b))

/-- A [1, 64] row as a function of the column. -/
abbrev rowVec (r : Mat 1 64) : Fin 64 → EReal := fun j => r (ix2 (0 : Fin 1) j)

/-! ## Region 0 -/

/-- One stored block against the layer of the whole arrays: the block's row p is row (i 0) of the arrays. -/
theorem block0 (x0 x1 : Vec Ideal S10000x64 .f32) (x2 : Vec Ideal S64x64 .f32) (x3 : Vec Ideal S1x64 .f32)
    (x4 : Vec Ideal S64x64 .f32) (x5 x6 : Vec Ideal S1x64 .f32) (H A : Mat 100000 64) (p : Fin 10000) (q : Fin 64) (i : S100000x64.Idx)
    (hq : q.val = (i 1).val)
    (hH : ∀ k : Fin 64, x0 (ix2 p k) = H (ix2 (i 0) k)) (hA : ∀ k : Fin 64, x1 (ix2 p k) = A (ix2 (i 0) k)) :
    out0_7 (F := Ideal) x0 x1 x2 x3 x4 x5 x6 (ix2 p q) = midLayer H A x2 x4 (rowVec x3) (rowVec x5) (rowVec x6) i := by
  have hq' : q = i 1 := Fin.ext hq
  rw [out0_7_entry]
  unfold midLayer
  rw [midEntry_congr (n := 10000) (n' := 100000) x0 x1 H A x2 x4 (rowVec x3) (rowVec x5) (rowVec x6) p (i 0) hH hA q, hq']

/-- The windows' index maps, decided over the ten grid points: the two row windows move with the output's, the others stay. -/
theorem idx_facts0 : ∀ t : Fin cfg0.N, win0_0.index t (0 : Fin 2) = win0_7.index t (0 : Fin 2)
    ∧ win0_0.index t (1 : Fin 2) = 0
    ∧ win0_1.index t (0 : Fin 2) = win0_7.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- What point t writes back is block t of the layer of the arrays as the region finds them. -/
theorem flushed0_eq (c : Dev nD) (t : Fin cfg0.N) :
    (dat0 (F := Ideal) V c).flushed 7 t = ((cfg0.win 7).blk t).view.read (Elt Ideal)
      (midLayer (n := 100000) (V c main_arg0) (V c main_v22) (V c main_arg2) (V c main_arg4) (rowVec (V c main_v23)) (rowVec (V c main_v24)) (rowVec (V c main_v25))) := by
  show (cfg0.win 7).cut (grid0.coords t) ((dat0 (F := Ideal) V c).after 7 t) = _
  rw [after0_7]
  obtain ⟨e00, e01, e10, e11, e20, e21, e30, e31, e40, e41, e50, e51, e60, e61, eo0, eo1⟩ := idx_facts0 t
  funext j
  obtain ⟨p, q, rfl⟩ : ∃ (p : Fin 10000) (q : Fin 64), j = ix2 p q := ⟨j 0, j 1, eq_ix2 j⟩
  have h2 : iblk0 V c 2 t = V c main_arg2 := by
    funext y
    have hy : ((cfg0.win 2).blk t).view.emb y = y := by
      funext a; apply Fin.ext
      match a with
      | ⟨0, _⟩ => show win0_2.index t (0 : Fin 2) * 64 + 1 * (y 0).val = (y 0).val; omega
      | ⟨1, _⟩ => show win0_2.index t (1 : Fin 2) * 64 + 1 * (y 1).val = (y 1).val; omega
    show V c main_arg2 (((cfg0.win 2).blk t).view.emb y) = V c main_arg2 y
    rw [hy]
  have h3 : iblk0 V c 3 t = V c main_v23 := by
    funext y
    have hy : ((cfg0.win 3).blk t).view.emb y = y := by
      funext a; apply Fin.ext
      match a with
      | ⟨0, _⟩ => show win0_3.index t (0 : Fin 2) * 1 + 1 * (y 0).val = (y 0).val; omega
      | ⟨1, _⟩ => show win0_3.index t (1 : Fin 2) * 64 + 1 * (y 1).val = (y 1).val; omega
    show V c main_v23 (((cfg0.win 3).blk t).view.emb y) = V c main_v23 y
    rw [hy]
  have h4 : iblk0 V c 4 t = V c main_arg4 := by
    funext y
    have hy : ((cfg0.win 4).blk t).view.emb y = y := by
      funext a; apply Fin.ext
      match a with
      | ⟨0, _⟩ => show win0_4.index t (0 : Fin 2) * 64 + 1 * (y 0).val = (y 0).val; omega
      | ⟨1, _⟩ => show win0_4.index t (1 : Fin 2) * 64 + 1 * (y 1).val = (y 1).val; omega
    show V c main_arg4 (((cfg0.win 4).blk t).view.emb y) = V c main_arg4 y
    rw [hy]
  have h5 : iblk0 V c 5 t = V c main_v24 := by
    funext y
    have hy : ((cfg0.win 5).blk t).view.emb y = y := by
      funext a; apply Fin.ext
      match a with
      | ⟨0, _⟩ => show win0_5.index t (0 : Fin 2) * 1 + 1 * (y 0).val = (y 0).val; omega
      | ⟨1, _⟩ => show win0_5.index t (1 : Fin 2) * 64 + 1 * (y 1).val = (y 1).val; omega
    show V c main_v24 (((cfg0.win 5).blk t).view.emb y) = V c main_v24 y
    rw [hy]
  have h6 : iblk0 V c 6 t = V c main_v25 := by
    funext y
    have hy : ((cfg0.win 6).blk t).view.emb y = y := by
      funext a; apply Fin.ext
      match a with
      | ⟨0, _⟩ => show win0_6.index t (0 : Fin 2) * 1 + 1 * (y 0).val = (y 0).val; omega
      | ⟨1, _⟩ => show win0_6.index t (1 : Fin 2) * 64 + 1 * (y 1).val = (y 1).val; omega
    show V c main_v25 (((cfg0.win 6).blk t).view.emb y) = V c main_v25 y
    rw [hy]
  show out0_7 (F := Ideal) (iblk0 V c 0 t) (iblk0 V c 1 t) (iblk0 V c 2 t) (iblk0 V c 3 t) (iblk0 V c 4 t) (iblk0 V c 5 t) (iblk0 V c 6 t) (ix2 p q)
      = midLayer (n := 100000) (V c main_arg0) (V c main_v22) (V c main_arg2) (V c main_arg4) (rowVec (V c main_v23)) (rowVec (V c main_v24)) (rowVec (V c main_v25)) (((cfg0.win 7).blk t).view.emb (ix2 p q))
  rw [h2, h3, h4, h5, h6]
  refine block0 (iblk0 V c 0 t) (iblk0 V c 1 t) (V c main_arg2) (V c main_v23) (V c main_arg4) (V c main_v24) (V c main_v25) (V c main_arg0) (V c main_v22) p q _ ?_ ?_ ?_
  · show q.val = win0_7.index t (1 : Fin 2) * 64 + 1 * q.val; omega
  · intro k
    have hk : ((cfg0.win 0).blk t).view.emb (ix2 p k) = ix2 ((((cfg0.win 7).blk t).view.emb (ix2 p q)) 0) k := by
      funext a; apply Fin.ext
      match a with
      | ⟨0, _⟩ => show win0_0.index t (0 : Fin 2) * 10000 + 1 * p.val = win0_7.index t (0 : Fin 2) * 10000 + 1 * p.val; omega
      | ⟨1, _⟩ => show win0_0.index t (1 : Fin 2) * 64 + 1 * k.val = k.val; omega
    exact congrArg (V c main_arg0) hk
  · intro k
    have hk : ((cfg0.win 1).blk t).view.emb (ix2 p k) = ix2 ((((cfg0.win 7).blk t).view.emb (ix2 p q)) 0) k := by
      funext a; apply Fin.ext
      match a with
      | ⟨0, _⟩ => show win0_1.index t (0 : Fin 2) * 10000 + 1 * p.val = win0_7.index t (0 : Fin 2) * 10000 + 1 * p.val; omega
      | ⟨1, _⟩ => show win0_1.index t (1 : Fin 2) * 64 + 1 * k.val = k.val; omega
    exact congrArg (V c main_v22) hk

/-- An index of the array is in point t's block iff each coordinate is in the block's range on its axis. -/
theorem mem_blk0 (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v26).slice (win0_7.rect t)).set ↔ _
  rw [View.set_slice_whole, Rect.mem_set_unit]
  exact Iff.rfl

/-- Every index of the output array is in some point's block: row r is in block r / 10000. -/
theorem cover0 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  refine ⟨⟨(i 0).val / 10000, by show (i 0).val / 10000 < 10; omega⟩, flush0_7 _, ?_⟩
  obtain ⟨e00, e01, e10, e11, e20, e21, e30, e31, e40, e41, e50, e51, e60, e61, eo0, eo1⟩ := idx_facts0 ⟨(i 0).val / 10000, by show (i 0).val / 10000 < 10; omega⟩
  rw [mem_blk0]
  intro a
  match a with
  | ⟨0, _⟩ => show win0_7.index _ (0 : Fin 2) * 10000 ≤ (i 0).val ∧ (i 0).val < win0_7.index _ (0 : Fin 2) * 10000 + 10000; rw [eo0]; show (i 0).val / 10000 * 10000 ≤ (i 0).val ∧ (i 0).val < (i 0).val / 10000 * 10000 + 10000; omega
  | ⟨1, _⟩ => show win0_7.index _ (1 : Fin 2) * 64 ≤ (i 1).val ∧ (i 1).val < win0_7.index _ (1 : Fin 2) * 64 + 64; rw [eo1]; omega

/-- The output array after the region: the layer of the arrays as the region finds them. -/
theorem final0 (c : Dev nD) : (dat0 (F := Ideal) V c).arrAt 7 cfg0.N
    = midLayer (n := 100000) (V c main_arg0) (V c main_v22) (V c main_arg2) (V c main_arg4) (rowVec (V c main_v23)) (rowVec (V c main_v24)) (rowVec (V c main_v25)) :=
  (dat0 (F := Ideal) V c).arrAt_eq_of_cover 7 _ (fun t _ => flushed0_eq V c t) (cover0)

/-! ## Region 1 -/

/-- One stored block against the layer of the whole arrays: the block's row p is row (i 0) of the arrays. -/
theorem block1 (x0 x1 : Vec Ideal S10000x64 .f32) (x2 : Vec Ideal S64x64 .f32) (x3 : Vec Ideal S1x64 .f32)
    (x4 : Vec Ideal S64x64 .f32) (x5 x6 : Vec Ideal S1x64 .f32) (H A : Mat 100000 64) (p : Fin 10000) (q : Fin 64) (i : S100000x64.Idx)
    (hq : q.val = (i 1).val)
    (hH : ∀ k : Fin 64, x0 (ix2 p k) = H (ix2 (i 0) k)) (hA : ∀ k : Fin 64, x1 (ix2 p k) = A (ix2 (i 0) k)) :
    out1_7 (F := Ideal) x0 x1 x2 x3 x4 x5 x6 (ix2 p q) = midLayer H A x2 x4 (rowVec x3) (rowVec x5) (rowVec x6) i := by
  have hq' : q = i 1 := Fin.ext hq
  rw [out1_7_entry]
  unfold midLayer
  rw [midEntry_congr (n := 10000) (n' := 100000) x0 x1 H A x2 x4 (rowVec x3) (rowVec x5) (rowVec x6) p (i 0) hH hA q, hq']

/-- The windows' index maps, decided over the ten grid points: the two row windows move with the output's, the others stay. -/
theorem idx_facts1 : ∀ t : Fin cfg1.N, win1_0.index t (0 : Fin 2) = win1_7.index t (0 : Fin 2)
    ∧ win1_0.index t (1 : Fin 2) = 0
    ∧ win1_1.index t (0 : Fin 2) = win1_7.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- What point t writes back is block t of the layer of the arrays as the region finds them. -/
theorem flushed1_eq (c : Dev nD) (t : Fin cfg1.N) :
    (dat1 (F := Ideal) V c).flushed 7 t = ((cfg1.win 7).blk t).view.read (Elt Ideal)
      (midLayer (n := 100000) (V c main_v26) (V c main_v45) (V c main_arg5) (V c main_arg7) (rowVec (V c main_v46)) (rowVec (V c main_v47)) (rowVec (V c main_v48))) := by
  show (cfg1.win 7).cut (grid1.coords t) ((dat1 (F := Ideal) V c).after 7 t) = _
  rw [after1_7]
  obtain ⟨e00, e01, e10, e11, e20, e21, e30, e31, e40, e41, e50, e51, e60, e61, eo0, eo1⟩ := idx_facts1 t
  funext j
  obtain ⟨p, q, rfl⟩ : ∃ (p : Fin 10000) (q : Fin 64), j = ix2 p q := ⟨j 0, j 1, eq_ix2 j⟩
  have h2 : iblk1 V c 2 t = V c main_arg5 := by
    funext y
    have hy : ((cfg1.win 2).blk t).view.emb y = y := by
      funext a; apply Fin.ext
      match a with
      | ⟨0, _⟩ => show win1_2.index t (0 : Fin 2) * 64 + 1 * (y 0).val = (y 0).val; omega
      | ⟨1, _⟩ => show win1_2.index t (1 : Fin 2) * 64 + 1 * (y 1).val = (y 1).val; omega
    show V c main_arg5 (((cfg1.win 2).blk t).view.emb y) = V c main_arg5 y
    rw [hy]
  have h3 : iblk1 V c 3 t = V c main_v46 := by
    funext y
    have hy : ((cfg1.win 3).blk t).view.emb y = y := by
      funext a; apply Fin.ext
      match a with
      | ⟨0, _⟩ => show win1_3.index t (0 : Fin 2) * 1 + 1 * (y 0).val = (y 0).val; omega
      | ⟨1, _⟩ => show win1_3.index t (1 : Fin 2) * 64 + 1 * (y 1).val = (y 1).val; omega
    show V c main_v46 (((cfg1.win 3).blk t).view.emb y) = V c main_v46 y
    rw [hy]
  have h4 : iblk1 V c 4 t = V c main_arg7 := by
    funext y
    have hy : ((cfg1.win 4).blk t).view.emb y = y := by
      funext a; apply Fin.ext
      match a with
      | ⟨0, _⟩ => show win1_4.index t (0 : Fin 2) * 64 + 1 * (y 0).val = (y 0).val; omega
      | ⟨1, _⟩ => show win1_4.index t (1 : Fin 2) * 64 + 1 * (y 1).val = (y 1).val; omega
    show V c main_arg7 (((cfg1.win 4).blk t).view.emb y) = V c main_arg7 y
    rw [hy]
  have h5 : iblk1 V c 5 t = V c main_v47 := by
    funext y
    have hy : ((cfg1.win 5).blk t).view.emb y = y := by
      funext a; apply Fin.ext
      match a with
      | ⟨0, _⟩ => show win1_5.index t (0 : Fin 2) * 1 + 1 * (y 0).val = (y 0).val; omega
      | ⟨1, _⟩ => show win1_5.index t (1 : Fin 2) * 64 + 1 * (y 1).val = (y 1).val; omega
    show V c main_v47 (((cfg1.win 5).blk t).view.emb y) = V c main_v47 y
    rw [hy]
  have h6 : iblk1 V c 6 t = V c main_v48 := by
    funext y
    have hy : ((cfg1.win 6).blk t).view.emb y = y := by
      funext a; apply Fin.ext
      match a with
      | ⟨0, _⟩ => show win1_6.index t (0 : Fin 2) * 1 + 1 * (y 0).val = (y 0).val; omega
      | ⟨1, _⟩ => show win1_6.index t (1 : Fin 2) * 64 + 1 * (y 1).val = (y 1).val; omega
    show V c main_v48 (((cfg1.win 6).blk t).view.emb y) = V c main_v48 y
    rw [hy]
  show out1_7 (F := Ideal) (iblk1 V c 0 t) (iblk1 V c 1 t) (iblk1 V c 2 t) (iblk1 V c 3 t) (iblk1 V c 4 t) (iblk1 V c 5 t) (iblk1 V c 6 t) (ix2 p q)
      = midLayer (n := 100000) (V c main_v26) (V c main_v45) (V c main_arg5) (V c main_arg7) (rowVec (V c main_v46)) (rowVec (V c main_v47)) (rowVec (V c main_v48)) (((cfg1.win 7).blk t).view.emb (ix2 p q))
  rw [h2, h3, h4, h5, h6]
  refine block1 (iblk1 V c 0 t) (iblk1 V c 1 t) (V c main_arg5) (V c main_v46) (V c main_arg7) (V c main_v47) (V c main_v48) (V c main_v26) (V c main_v45) p q _ ?_ ?_ ?_
  · show q.val = win1_7.index t (1 : Fin 2) * 64 + 1 * q.val; omega
  · intro k
    have hk : ((cfg1.win 0).blk t).view.emb (ix2 p k) = ix2 ((((cfg1.win 7).blk t).view.emb (ix2 p q)) 0) k := by
      funext a; apply Fin.ext
      match a with
      | ⟨0, _⟩ => show win1_0.index t (0 : Fin 2) * 10000 + 1 * p.val = win1_7.index t (0 : Fin 2) * 10000 + 1 * p.val; omega
      | ⟨1, _⟩ => show win1_0.index t (1 : Fin 2) * 64 + 1 * k.val = k.val; omega
    exact congrArg (V c main_v26) hk
  · intro k
    have hk : ((cfg1.win 1).blk t).view.emb (ix2 p k) = ix2 ((((cfg1.win 7).blk t).view.emb (ix2 p q)) 0) k := by
      funext a; apply Fin.ext
      match a with
      | ⟨0, _⟩ => show win1_1.index t (0 : Fin 2) * 10000 + 1 * p.val = win1_7.index t (0 : Fin 2) * 10000 + 1 * p.val; omega
      | ⟨1, _⟩ => show win1_1.index t (1 : Fin 2) * 64 + 1 * k.val = k.val; omega
    exact congrArg (V c main_v45) hk

/-- An index of the array is in point t's block iff each coordinate is in the block's range on its axis. -/
theorem mem_blk1 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v49).slice (win1_7.rect t)).set ↔ _
  rw [View.set_slice_whole, Rect.mem_set_unit]
  exact Iff.rfl

/-- Every index of the output array is in some point's block: row r is in block r / 10000. -/
theorem cover1 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  refine ⟨⟨(i 0).val / 10000, by show (i 0).val / 10000 < 10; omega⟩, flush1_7 _, ?_⟩
  obtain ⟨e00, e01, e10, e11, e20, e21, e30, e31, e40, e41, e50, e51, e60, e61, eo0, eo1⟩ := idx_facts1 ⟨(i 0).val / 10000, by show (i 0).val / 10000 < 10; omega⟩
  rw [mem_blk1]
  intro a
  match a with
  | ⟨0, _⟩ => show win1_7.index _ (0 : Fin 2) * 10000 ≤ (i 0).val ∧ (i 0).val < win1_7.index _ (0 : Fin 2) * 10000 + 10000; rw [eo0]; show (i 0).val / 10000 * 10000 ≤ (i 0).val ∧ (i 0).val < (i 0).val / 10000 * 10000 + 10000; omega
  | ⟨1, _⟩ => show win1_7.index _ (1 : Fin 2) * 64 ≤ (i 1).val ∧ (i 1).val < win1_7.index _ (1 : Fin 2) * 64 + 64; rw [eo1]; omega

/-- The output array after the region: the layer of the arrays as the region finds them. -/
theorem final1 (c : Dev nD) : (dat1 (F := Ideal) V c).arrAt 7 cfg1.N
    = midLayer (n := 100000) (V c main_v26) (V c main_v45) (V c main_arg5) (V c main_arg7) (rowVec (V c main_v46)) (rowVec (V c main_v47)) (rowVec (V c main_v48)) :=
  (dat1 (F := Ideal) V c).arrAt_eq_of_cover 7 _ (fun t _ => flushed1_eq V c t) (cover1)

/-! ## Region 2 -/

/-- One stored block against the layer of the whole arrays: the block's row p is row (i 0) of the arrays. -/
theorem block2 (x0 x1 : Vec Ideal S10000x64 .f32) (x2 : Vec Ideal S64x64 .f32) (x3 : Vec Ideal S1x64 .f32)
    (x4 : Vec Ideal S64x64 .f32) (H A : Mat 100000 64) (p : Fin 10000) (q : Fin 64) (i : S100000x64.Idx)
    (hq : q.val = (i 1).val)
    (hH : ∀ k : Fin 64, x0 (ix2 p k) = H (ix2 (i 0) k)) (hA : ∀ k : Fin 64, x1 (ix2 p k) = A (ix2 (i 0) k)) :
    out2_5 (F := Ideal) x0 x1 x2 x3 x4 (ix2 p q) = finLayer H A x2 x4 (rowVec x3) i := by
  have hq' : q = i 1 := Fin.ext hq
  rw [out2_5_entry]
  unfold finLayer
  rw [finEntry_congr (n := 10000) (n' := 100000) x0 x1 H A x2 x4 (rowVec x3) p (i 0) hH hA q, hq']

/-- The windows' index maps, decided over the ten grid points: the two row windows move with the output's, the others stay. -/
theorem idx_facts2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- What point t writes back is block t of the layer of the arrays as the region finds them. -/
theorem flushed2_eq (c : Dev nD) (t : Fin cfg2.N) :
    (dat2 (F := Ideal) V c).flushed 5 t = ((cfg2.win 5).blk t).view.read (Elt Ideal)
      (finLayer (n := 100000) (V c main_v49) (V c main_v68) (V c main_arg8) (V c main_arg10) (rowVec (V c main_v69))) := by
  show (cfg2.win 5).cut (grid2.coords t) ((dat2 (F := Ideal) V c).after 5 t) = _
  rw [after2_5]
  obtain ⟨e00, e01, e10, e11, e20, e21, e30, e31, e40, e41, eo0, eo1⟩ := idx_facts2 t
  funext j
  obtain ⟨p, q, rfl⟩ : ∃ (p : Fin 10000) (q : Fin 64), j = ix2 p q := ⟨j 0, j 1, eq_ix2 j⟩
  have h2 : iblk2 V c 2 t = V c main_arg8 := by
    funext y
    have hy : ((cfg2.win 2).blk t).view.emb y = y := by
      funext a; apply Fin.ext
      match a with
      | ⟨0, _⟩ => show win2_2.index t (0 : Fin 2) * 64 + 1 * (y 0).val = (y 0).val; omega
      | ⟨1, _⟩ => show win2_2.index t (1 : Fin 2) * 64 + 1 * (y 1).val = (y 1).val; omega
    show V c main_arg8 (((cfg2.win 2).blk t).view.emb y) = V c main_arg8 y
    rw [hy]
  have h3 : iblk2 V c 3 t = V c main_v69 := by
    funext y
    have hy : ((cfg2.win 3).blk t).view.emb y = y := by
      funext a; apply Fin.ext
      match a with
      | ⟨0, _⟩ => show win2_3.index t (0 : Fin 2) * 1 + 1 * (y 0).val = (y 0).val; omega
      | ⟨1, _⟩ => show win2_3.index t (1 : Fin 2) * 64 + 1 * (y 1).val = (y 1).val; omega
    show V c main_v69 (((cfg2.win 3).blk t).view.emb y) = V c main_v69 y
    rw [hy]
  have h4 : iblk2 V c 4 t = V c main_arg10 := by
    funext y
    have hy : ((cfg2.win 4).blk t).view.emb y = y := by
      funext a; apply Fin.ext
      match a with
      | ⟨0, _⟩ => show win2_4.index t (0 : Fin 2) * 64 + 1 * (y 0).val = (y 0).val; omega
      | ⟨1, _⟩ => show win2_4.index t (1 : Fin 2) * 64 + 1 * (y 1).val = (y 1).val; omega
    show V c main_arg10 (((cfg2.win 4).blk t).view.emb y) = V c main_arg10 y
    rw [hy]
  show out2_5 (F := Ideal) (iblk2 V c 0 t) (iblk2 V c 1 t) (iblk2 V c 2 t) (iblk2 V c 3 t) (iblk2 V c 4 t) (ix2 p q)
      = finLayer (n := 100000) (V c main_v49) (V c main_v68) (V c main_arg8) (V c main_arg10) (rowVec (V c main_v69)) (((cfg2.win 5).blk t).view.emb (ix2 p q))
  rw [h2, h3, h4]
  refine block2 (iblk2 V c 0 t) (iblk2 V c 1 t) (V c main_arg8) (V c main_v69) (V c main_arg10) (V c main_v49) (V c main_v68) p q _ ?_ ?_ ?_
  · show q.val = win2_5.index t (1 : Fin 2) * 64 + 1 * q.val; omega
  · intro k
    have hk : ((cfg2.win 0).blk t).view.emb (ix2 p k) = ix2 ((((cfg2.win 5).blk t).view.emb (ix2 p q)) 0) k := by
      funext a; apply Fin.ext
      match a with
      | ⟨0, _⟩ => show win2_0.index t (0 : Fin 2) * 10000 + 1 * p.val = win2_5.index t (0 : Fin 2) * 10000 + 1 * p.val; omega
      | ⟨1, _⟩ => show win2_0.index t (1 : Fin 2) * 64 + 1 * k.val = k.val; omega
    exact congrArg (V c main_v49) hk
  · intro k
    have hk : ((cfg2.win 1).blk t).view.emb (ix2 p k) = ix2 ((((cfg2.win 5).blk t).view.emb (ix2 p q)) 0) k := by
      funext a; apply Fin.ext
      match a with
      | ⟨0, _⟩ => show win2_1.index t (0 : Fin 2) * 10000 + 1 * p.val = win2_5.index t (0 : Fin 2) * 10000 + 1 * p.val; omega
      | ⟨1, _⟩ => show win2_1.index t (1 : Fin 2) * 64 + 1 * k.val = k.val; omega
    exact congrArg (V c main_v68) hk

/-- An index of the array is in point t's block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v70).slice (win2_5.rect t)).set ↔ _
  rw [View.set_slice_whole, Rect.mem_set_unit]
  exact Iff.rfl

/-- Every index of the output array is in some point's block: row r is in block r / 10000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  refine ⟨⟨(i 0).val / 10000, by show (i 0).val / 10000 < 10; omega⟩, flush2_5 _, ?_⟩
  obtain ⟨e00, e01, e10, e11, e20, e21, e30, e31, e40, e41, eo0, eo1⟩ := idx_facts2 ⟨(i 0).val / 10000, by show (i 0).val / 10000 < 10; omega⟩
  rw [mem_blk2]
  intro a
  match a with
  | ⟨0, _⟩ => show win2_5.index _ (0 : Fin 2) * 10000 ≤ (i 0).val ∧ (i 0).val < win2_5.index _ (0 : Fin 2) * 10000 + 10000; rw [eo0]; show (i 0).val / 10000 * 10000 ≤ (i 0).val ∧ (i 0).val < (i 0).val / 10000 * 10000 + 10000; omega
  | ⟨1, _⟩ => show win2_5.index _ (1 : Fin 2) * 64 ≤ (i 1).val ∧ (i 1).val < win2_5.index _ (1 : Fin 2) * 64 + 64; rw [eo1]; omega

/-- The output array after the region: the layer of the arrays as the region finds them. -/
theorem final2 (c : Dev nD) : (dat2 (F := Ideal) V c).arrAt 5 cfg2.N
    = finLayer (n := 100000) (V c main_v49) (V c main_v68) (V c main_arg8) (V c main_arg10) (rowVec (V c main_v69)) :=
  (dat2 (F := Ideal) V c).arrAt_eq_of_cover 5 _ (fun t _ => flushed2_eq V c t) (cover2)

end Cert.KernelIdeal.Blocks

end
-- ==== Proof.KStages.lean ====
/-
  The idealized kernel's buffers at the three region entries, and its result.

  Before each region a stretch of host operations computes the neighbourhood means of the current node features
  (the same gather, scatter-add and division the reference applies: one shared function of the features and of the
  index array, never opened here) and lays three length-64 vectors out as [1, 64] rows; nothing writes an argument.
  So the first region finds the arguments and the means of x, and leaves the first middle layer h₁; the second finds
  h₁ and its means and leaves h₂; the third finds h₂ and its means and leaves the last layer, the program's result.
-/
import proofs.«170888_j42030549959220_1_alg».proof.Proof.KBlocks
import proofs.«170888_j42030549959220_1_alg».proof.Proof.RefRead
import Idealize.ShloMosaic.Lib.StableHlo.Run
import Idealize.ShloMosaic.Lib.ValueLayout

noncomputable section

namespace Cert.KernelIdeal.Stages

open Cert.KernelIdeal Cert.KernelIdeal.Gen Idealize.ShloMosaic Idealize.ShloMosaic.TcCoe Idealize.SL.Sem Idealize.ShloMosaic.StableHlo
open Idealize.ShloMosaic.ValueIdx Cert.Sage Cert.KernelIdeal.Blocks

variable (m : (ℓ : Loc nD τ sig) → Buf (Elt Ideal) ℓ) (ρ : Dev nD → PrngReg)

/-- The neighbourhood means of an array of node features along the edges of the index array: the reference's own
    composed host operations, as one function. -/
abbrev aggr (h : (⟨Cert.ReferenceIdeal.S100000x64, .f32⟩ : BufTy).Contents (Elt Ideal))
    (ei : (⟨Cert.ReferenceIdeal.S2x1250000, .i32⟩ : BufTy).Contents (Elt Ideal)) :
    (⟨Cert.ReferenceIdeal.S100000x64, .f32⟩ : BufTy).Contents (Elt Ideal) :=
  Cert.ReferenceIdeal.RefRead.val_main_v22 (F := Ideal) h ei

/-- A length-64 vector as a function of the position. -/
abbrev vec (b : (⟨1, ![64]⟩ : Shape).Idx → EReal) : Fin 64 → EReal := fun j => b (ix1 j)

/-- A length-64 vector cast to a [1, 64] row, read back as a function of the column. -/
theorem rowVec_cast (b : (⟨1, ![64]⟩ : Shape).Idx → EReal) (h : (⟨1, ![64]⟩ : Shape).ShapeCasts ⟨2, ![1, 64]⟩) :
    rowVec (fun i => shapeCast ⟨2, ![1, 64]⟩ b h i) = vec b :=
  funext fun j => shapeCast_a_1a_apply b h 0 j

/-- The first middle layer of the arguments. -/
def h1 (c : Dev nD) : Mat 100000 64 :=
  midLayer (n := 100000) (m ((c : Thread nD τ).loc main_arg0)) (aggr (m ((c : Thread nD τ).loc main_arg0)) (m ((c : Thread nD τ).loc main_arg1))) (m ((c : Thread nD τ).loc main_arg2)) (m ((c : Thread nD τ).loc main_arg4)) (vec (m ((c : Thread nD τ).loc main_arg3))) (vec (m ((c : Thread nD τ).loc main_arg11))) (vec (m ((c : Thread nD τ).loc main_arg12)))

/-- The second middle layer. -/
def h2 (c : Dev nD) : Mat 100000 64 :=
  midLayer (n := 100000) (h1 m c) (aggr (h1 m c) (m ((c : Thread nD τ).loc main_arg1))) (m ((c : Thread nD τ).loc main_arg5)) (m ((c : Thread nD τ).loc main_arg7)) (vec (m ((c : Thread nD τ).loc main_arg6))) (vec (m ((c : Thread nD τ).loc main_arg13))) (vec (m ((c : Thread nD τ).loc main_arg14)))

/-- The last layer: the program's result. -/
def out (c : Dev nD) : Mat 100000 64 :=
  finLayer (n := 100000) (h2 m c) (aggr (h2 m c) (m ((c : Thread nD τ).loc main_arg1))) (m ((c : Thread nD τ).loc main_arg8)) (m ((c : Thread nD τ).loc main_arg10)) (vec (m ((c : Thread nD τ).loc main_arg9)))

/-! ## Before region 0 -/

set_option maxHeartbeats 2000000 in
theorem W1_arg0 (c : Dev nD) : StableHlo.after hostOps0 (W0 m ρ c) (Proc.devRef .tc main_arg0) = (m ((c : Thread nD τ).loc main_arg0)) := by
  after_results_simp

set_option maxHeartbeats 2000000 in
theorem W1_arg2 (c : Dev nD) : StableHlo.after hostOps0 (W0 m ρ c) (Proc.devRef .tc main_arg2) = (m ((c : Thread nD τ).loc main_arg2)) := by
  after_results_simp

set_option maxHeartbeats 2000000 in
theorem W1_arg4 (c : Dev nD) : StableHlo.after hostOps0 (W0 m ρ c) (Proc.devRef .tc main_arg4) = (m ((c : Thread nD τ).loc main_arg4)) := by
  after_results_simp

set_option maxHeartbeats 2000000 in
theorem W1_arg5 (c : Dev nD) : StableHlo.after hostOps0 (W0 m ρ c) (Proc.devRef .tc main_arg5) = (m ((c : Thread nD τ).loc main_arg5)) := by
  after_results_simp

set_option maxHeartbeats 2000000 in
theorem W1_arg6 (c : Dev nD) : StableHlo.after hostOps0 (W0 m ρ c) (Proc.devRef .tc main_arg6) = (m ((c : Thread nD τ).loc main_arg6)) := by
  after_results_simp

set_option maxHeartbeats 2000000 in
theorem W1_arg7 (c : Dev nD) : StableHlo.after hostOps0 (W0 m ρ c) (Proc.devRef .tc main_arg7) = (m ((c : Thread nD τ).loc main_arg7)) := by
  after_results_simp

set_option maxHeartbeats 2000000 in
theorem W1_arg8 (c : Dev nD) : StableHlo.after hostOps0 (W0 m ρ c) (Proc.devRef .tc main_arg8) = (m ((c : Thread nD τ).loc main_arg8)) := by
  after_results_simp

set_option maxHeartbeats 2000000 in
theorem W1_arg9 (c : Dev nD) : StableHlo.after hostOps0 (W0 m ρ c) (Proc.devRef .tc main_arg9) = (m ((c : Thread nD τ).loc main_arg9)) := by
  after_results_simp

set_option maxHeartbeats 2000000 in
theorem W1_arg10 (c : Dev nD) : StableHlo.after hostOps0 (W0 m ρ c) (Proc.devRef .tc main_arg10) = (m ((c : Thread nD τ).loc main_arg10)) := by
  after_results_simp

set_option maxHeartbeats 2000000 in
theorem W1_arg13 (c : Dev nD) : StableHlo.after hostOps0 (W0 m ρ c) (Proc.devRef .tc main_arg13) = (m ((c : Thread nD τ).loc main_arg13)) := by
  after_results_simp

set_option maxHeartbeats 2000000 in
theorem W1_arg14 (c : Dev nD) : StableHlo.after hostOps0 (W0 m ρ c) (Proc.devRef .tc main_arg14) = (m ((c : Thread nD τ).loc main_arg14)) := by
  after_results_simp

set_option maxHeartbeats 2000000 in
theorem W1_v22 (c : Dev nD) : StableHlo.after hostOps0 (W0 m ρ c) (Proc.devRef .tc main_v22) = aggr (m ((c : Thread nD τ).loc main_arg0)) (m ((c : Thread nD τ).loc main_arg1)) := by
  after_results_simp
  rfl

set_option maxHeartbeats 2000000 in
theorem W1_v1 (c : Dev nD) : StableHlo.after hostOps0 (W0 m ρ c) (Proc.devRef .tc main_v1) = Cert.ReferenceIdeal.RefRead.val_main_v1 (F := Ideal) (m ((c : Thread nD τ).loc main_arg1)) := by
  after_results_simp
  rfl

set_option maxHeartbeats 2000000 in
theorem W1_v3 (c : Dev nD) : StableHlo.after hostOps0 (W0 m ρ c) (Proc.devRef .tc main_v3) = Cert.ReferenceIdeal.RefRead.val_main_v3 (F := Ideal) (m ((c : Thread nD τ).loc main_arg1)) := by
  after_results_simp
  rfl

set_option maxHeartbeats 2000000 in
theorem W1_v23 (c : Dev nD) : StableHlo.after hostOps0 (W0 m ρ c) (Proc.devRef .tc main_v23) = fun i => shapeCast S1x64 (m ((c : Thread nD τ).loc main_arg3)) shapeCasts_S64_S1x64 i := by
  after_results_simp
  rfl

set_option maxHeartbeats 2000000 in
theorem W1_v24 (c : Dev nD) : StableHlo.after hostOps0 (W0 m ρ c) (Proc.devRef .tc main_v24) = fun i => shapeCast S1x64 (m ((c : Thread nD τ).loc main_arg11)) shapeCasts_S64_S1x64 i := by
  after_results_simp
  rfl

set_option maxHeartbeats 2000000 in
theorem W1_v25 (c : Dev nD) : StableHlo.after hostOps0 (W0 m ρ c) (Proc.devRef .tc main_v25) = fun i => shapeCast S1x64 (m ((c : Thread nD τ).loc main_arg12)) shapeCasts_S64_S1x64 i := by
  after_results_simp
  rfl

/-- Region 0 leaves the first middle layer in its output array. -/
theorem out0 (c : Dev nD) : (dat0 (F := Ideal) (V1 m ρ) c).arrAt 7 cfg0.N = h1 m c := by
  rw [final0 (V1 m ρ) c]
  show midLayer (n := 100000) (StableHlo.after hostOps0 (W0 m ρ c) (Proc.devRef .tc main_arg0)) (StableHlo.after hostOps0 (W0 m ρ c) (Proc.devRef .tc main_v22))
      (StableHlo.after hostOps0 (W0 m ρ c) (Proc.devRef .tc main_arg2)) (StableHlo.after hostOps0 (W0 m ρ c) (Proc.devRef .tc main_arg4))
      (rowVec (StableHlo.after hostOps0 (W0 m ρ c) (Proc.devRef .tc main_v23))) (rowVec (StableHlo.after hostOps0 (W0 m ρ c) (Proc.devRef .tc main_v24)))
      (rowVec (StableHlo.after hostOps0 (W0 m ρ c) (Proc.devRef .tc main_v25))) = _
  rw [W1_arg0, W1_v22, W1_arg2, W1_arg4, W1_v23, W1_v24, W1_v25, rowVec_cast, rowVec_cast, rowVec_cast]
  rfl

/-! ## Between region 0 and region 1 -/

theorem W2_v26 (c : Dev nD) : W2 m ρ c (Proc.devRef .tc main_v26) = h1 m c := (W2_arr m ρ c 7).trans (out0 m ρ c)
theorem W2_v1 (c : Dev nD) : W2 m ρ c (Proc.devRef .tc main_v1) = Cert.ReferenceIdeal.RefRead.val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = Cert.ReferenceIdeal.RefRead.val_main_v3 (F := Ideal) (m ((c : Thread nD τ).loc main_arg1)) :=
  (W2_of_ne m ρ c main_v3 (by decide)).trans (W1_v3 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg13 (c : Dev nD) : W2 m ρ c (Proc.devRef .tc main_arg13) = (m ((c : Thread nD τ).loc main_arg13)) :=
  (W2_of_ne m ρ c main_arg13 (by decide)).trans (W1_arg13 m ρ c)
theorem W2_arg14 (c : Dev nD) : W2 m ρ c (Proc.devRef .tc main_arg14) = (m ((c : Thread nD τ).loc main_arg14)) :=
  (W2_of_ne m ρ c main_arg14 (by decide)).trans (W1_arg14 m ρ c)

set_option maxHeartbeats 2000000 in
theorem W3_keep_v26 (c : Dev nD) : StableHlo.after hostOps1 (W2 m ρ c) (Proc.devRef .tc main_v26) = W2 m ρ c (Proc.devRef .tc main_v26) := by
  after_results_simp

set_option maxHeartbeats 2000000 in
theorem W3_keep_v1 (c : Dev nD) : StableHlo.after hostOps1 (W2 m ρ c) (Proc.devRef .tc main_v1) = W2 m ρ c (Proc.devRef .tc main_v1) := by
  after_results_simp

set_option maxHeartbeats 2000000 in
theorem W3_keep_v3 (c : Dev nD) : StableHlo.after hostOps1 (W2 m ρ c) (Proc.devRef .tc main_v3) = W2 m ρ c (Proc.devRef .tc main_v3) := by
  after_results_simp

set_option maxHeartbeats 2000000 in
theorem W3_keep_arg5 (c : Dev nD) : StableHlo.after hostOps1 (W2 m ρ c) (Proc.devRef .tc main_arg5) = W2 m ρ c (Proc.devRef .tc main_arg5) := by
  after_results_simp

set_option maxHeartbeats 2000000 in
theorem W3_keep_arg7 (c : Dev nD) : StableHlo.after hostOps1 (W2 m ρ c) (Proc.devRef .tc main_arg7) = W2 m ρ c (Proc.devRef .tc main_arg7) := by
  after_results_simp

set_option maxHeartbeats 2000000 in
theorem W3_keep_arg8 (c : Dev nD) : StableHlo.after hostOps1 (W2 m ρ c) (Proc.devRef .tc main_arg8) = W2 m ρ c (Proc.devRef .tc main_arg8) := by
  after_results_simp

set_option maxHeartbeats 2000000 in
theorem W3_keep_arg9 (c : Dev nD) : StableHlo.after hostOps1 (W2 m ρ c) (Proc.devRef .tc main_arg9) = W2 m ρ c (Proc.devRef .tc main_arg9) := by
  after_results_simp

set_option maxHeartbeats 2000000 in
theorem W3_keep_arg10 (c : Dev nD) : StableHlo.after hostOps1 (W2 m ρ c) (Proc.devRef .tc main_arg10) = W2 m ρ c (Proc.devRef .tc main_arg10) := by
  after_results_simp

set_option maxHeartbeats 2000000 in
theorem W3_v45 (c : Dev nD) : StableHlo.after hostOps1 (W2 m ρ c) (Proc.devRef .tc main_v45) = aggr (h1 m c) (m ((c : Thread nD τ).loc main_arg1)) := by
  after_results_simp
  rw [W2_v26, W2_v1, W2_v3]
  rfl

set_option maxHeartbeats 2000000 in
theorem W3_v46 (c : Dev nD) : StableHlo.after hostOps1 (W2 m ρ c) (Proc.devRef .tc main_v46) = fun i => shapeCast S1x64 (m ((c : Thread nD τ).loc main_arg6)) shapeCasts_S64_S1x64 i := by
  after_results_simp
  rw [W2_arg6]
  rfl

set_option maxHeartbeats 2000000 in
theorem W3_v47 (c : Dev nD) : StableHlo.after hostOps1 (W2 m ρ c) (Proc.devRef .tc main_v47) = fun i => shapeCast S1x64 (m ((c : Thread nD τ).loc main_arg13)) shapeCasts_S64_S1x64 i := by
  after_results_simp
  rw [W2_arg13]
  rfl

set_option maxHeartbeats 2000000 in
theorem W3_v48 (c : Dev nD) : StableHlo.after hostOps1 (W2 m ρ c) (Proc.devRef .tc main_v48) = fun i => shapeCast S1x64 (m ((c : Thread nD τ).loc main_arg14)) shapeCasts_S64_S1x64 i := by
  after_results_simp
  rw [W2_arg14]
  rfl

/-- Region 1 leaves the second middle layer in its output array. -/
theorem out1 (c : Dev nD) : (dat1 (F := Ideal) (V3 m ρ) c).arrAt 7 cfg1.N = h2 m c := by
  rw [final1 (V3 m ρ) c]
  show midLayer (n := 100000) (StableHlo.after hostOps1 (W2 m ρ c) (Proc.devRef .tc main_v26)) (StableHlo.after hostOps1 (W2 m ρ c) (Proc.devRef .tc main_v45))
      (StableHlo.after hostOps1 (W2 m ρ c) (Proc.devRef .tc main_arg5)) (StableHlo.after hostOps1 (W2 m ρ c) (Proc.devRef .tc main_arg7))
      (rowVec (StableHlo.after hostOps1 (W2 m ρ c) (Proc.devRef .tc main_v46))) (rowVec (StableHlo.after hostOps1 (W2 m ρ c) (Proc.devRef .tc main_v47)))
      (rowVec (StableHlo.after hostOps1 (W2 m ρ c) (Proc.devRef .tc main_v48))) = _
  rw [W3_keep_v26, W3_v45, W3_keep_arg5, W3_keep_arg7, W3_v46, W3_v47, W3_v48, rowVec_cast, rowVec_cast, rowVec_cast,
    W2_v26, W2_arg5, W2_arg7]
  rfl

/-! ## Between region 1 and region 2 -/

theorem W4_v49 (c : Dev nD) : W4 m ρ c (Proc.devRef .tc main_v49) = h2 m c := (W4_arr m ρ c 7).trans (out1 m ρ c)
theorem W4_v1 (c : Dev nD) : W4 m ρ c (Proc.devRef .tc main_v1) = Cert.ReferenceIdeal.RefRead.val_main_v1 (F := Ideal) (m ((c : Thread nD τ).loc main_arg1)) :=
  (W4_of_ne m ρ c main_v1 (by decide)).trans ((W3_keep_v1 m ρ c).trans (W2_v1 m ρ c))
theorem W4_v3 (c : Dev nD) : W4 m ρ c (Proc.devRef .tc main_v3) = Cert.ReferenceIdeal.RefRead.val_main_v3 (F := Ideal) (m ((c : Thread nD τ).loc main_arg1)) :=
  (W4_of_ne m ρ c main_v3 (by decide)).trans ((W3_keep_v3 m ρ c).trans (W2_v3 m ρ c))
theorem W4_arg8 (c : Dev nD) : W4 m ρ c (Proc.devRef .tc main_arg8) = (m ((c : Thread nD τ).loc main_arg8)) :=
  (W4_of_ne m ρ c main_arg8 (by decide)).trans ((W3_keep_arg8 m ρ c).trans (W2_arg8 m ρ c))
theorem W4_arg9 (c : Dev nD) : W4 m ρ c (Proc.devRef .tc main_arg9) = (m ((c : Thread nD τ).loc main_arg9)) :=
  (W4_of_ne m ρ c main_arg9 (by decide)).trans ((W3_keep_arg9 m ρ c).trans (W2_arg9 m ρ c))
theorem W4_arg10 (c : Dev nD) : W4 m ρ c (Proc.devRef .tc main_arg10) = (m ((c : Thread nD τ).loc main_arg10)) :=
  (W4_of_ne m ρ c main_arg10 (by decide)).trans ((W3_keep_arg10 m ρ c).trans (W2_arg10 m ρ c))

set_option maxHeartbeats 2000000 in
theorem W5_keep_v49 (c : Dev nD) : StableHlo.after hostOps2 (W4 m ρ c) (Proc.devRef .tc main_v49) = W4 m ρ c (Proc.devRef .tc main_v49) := by
  after_results_simp

set_option maxHeartbeats 2000000 in
theorem W5_keep_arg8 (c : Dev nD) : StableHlo.after hostOps2 (W4 m ρ c) (Proc.devRef .tc main_arg8) = W4 m ρ c (Proc.devRef .tc main_arg8) := by
  after_results_simp

set_option maxHeartbeats 2000000 in
theorem W5_keep_arg10 (c : Dev nD) : StableHlo.after hostOps2 (W4 m ρ c) (Proc.devRef .tc main_arg10) = W4 m ρ c (Proc.devRef .tc main_arg10) := by
  after_results_simp

set_option maxHeartbeats 2000000 in
theorem W5_v68 (c : Dev nD) : StableHlo.after hostOps2 (W4 m ρ c) (Proc.devRef .tc main_v68) = aggr (h2 m c) (m ((c : Thread nD τ).loc main_arg1)) := by
  after_results_simp
  rw [W4_v49, W4_v1, W4_v3]
  rfl

set_option maxHeartbeats 2000000 in
theorem W5_v69 (c : Dev nD) : StableHlo.after hostOps2 (W4 m ρ c) (Proc.devRef .tc main_v69) = fun i => shapeCast S1x64 (m ((c : Thread nD τ).loc main_arg9)) shapeCasts_S64_S1x64 i := by
  after_results_simp
  rw [W4_arg9]
  rfl

/-- Region 2 leaves the last layer in its output array. -/
theorem out2 (c : Dev nD) : (dat2 (F := Ideal) (V5 m ρ) c).arrAt 5 cfg2.N = out m c := by
  rw [final2 (V5 m ρ) c]
  show finLayer (n := 100000) (StableHlo.after hostOps2 (W4 m ρ c) (Proc.devRef .tc main_v49)) (StableHlo.after hostOps2 (W4 m ρ c) (Proc.devRef .tc main_v68))
      (StableHlo.after hostOps2 (W4 m ρ c) (Proc.devRef .tc main_arg8)) (StableHlo.after hostOps2 (W4 m ρ c) (Proc.devRef .tc main_arg10))
      (rowVec (StableHlo.after hostOps2 (W4 m ρ c) (Proc.devRef .tc main_v69))) = _
  rw [W5_keep_v49, W5_v68, W5_keep_arg8, W5_keep_arg10, W5_v69, rowVec_cast, W4_v49, W4_arg8, W4_arg10]
  rfl

/-- The result buffer at the last boundary holds the last layer. -/
theorem result (c : Dev nD) : W6 m ρ c (Proc.devRef .tc main_v70) = out m c := (W6_arr m ρ c 5).trans (out2 m ρ c)

end Cert.KernelIdeal.Stages

end
-- ==== Proof.LibHostLine.lean ====
/-
  Reading a straight line of host operations at ONE buffer.

  A line in single-assignment form writes each of its result buffers exactly once. Then the contents
  of the k-th result after the WHOLE line are the k-th operation's function applied to the contents,
  again after the whole line, of its operands: an operand is either written earlier in the line or
  not at all, so nothing from position k on changes it. The lemmas here state that once, for the
  builders of host operations (no operand, one to four operands, a reshape, a family of operands),
  over a list `W` naming the buffer each operation writes.
-/
import Idealize.ShloMosaic.Lib.StableHlo.Run
import Mathlib.Data.List.Forall2
import Mathlib.Data.List.Nodup

namespace Idealize.ShloMosaic.StableHlo.Line

open Idealize.ShloMosaic Idealize.ShloMosaic.StableHlo

variable {τ : Topo} {sig : RefSig} {Val : EltTy → Type}

/-- The fold over two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Position `off + i` of several lists laid end to end, `off` the total length of the first `q`, is position `i` of list `q`. -/
theorem getElem?_flatten_at {α : Type _} (L : List (List α)) (q : Nat) (l : List α) (hq : L[q]? = some l) (off : Nat)
    (hoff : ((L.take q).map List.length).sum = off) (i : Nat) (hi : i < l.length) :
    L.flatten[off + i]? = l[i]? := by
  subst hoff
  induction L generalizing q with
  | nil => simp at hq
  | cons a L ih =>
    cases q with
    | zero =>
      simp only [List.getElem?_cons_zero, Option.some.injEq] at hq
      subst hq
      simp only [List.take_zero, List.map_nil, List.sum_nil, Nat.zero_add, List.flatten_cons]
      exact List.getElem?_append_left hi
    | succ q =>
      simp only [List.getElem?_cons_succ] at hq
      simp only [List.take_succ_cons, List.map_cons, List.sum_cons, List.flatten_cons]
      rw [Nat.add_assoc, List.getElem?_append_right (Nat.le_add_right _ _), Nat.add_sub_cancel_left]
      exact ih q hq

/-- The same with the lists' lengths given as a list of numbers, so that the offset is a sum of numbers. -/
theorem getElem?_flatten_lens {α : Type _} (L : List (List α)) (lens : List Nat) (hl : L.map List.length = lens)
    (q : Nat) (l : List α) (hq : L[q]? = some l) (off : Nat) (hoff : (lens.take q).sum = off)
    (n : Nat) (hn : lens[q]? = some n) (i : Nat) (hi : i < n) : L.flatten[off + i]? = l[i]? := by
  subst hl
  have hlen : (L.map List.length)[q]? = some l.length := by rw [List.getElem?_map, hq]; rfl
  rw [hlen] at hn
  cases hn
  exact getElem?_flatten_at L q l hq off (by rw [List.map_take]; exact hoff) i hi

/-- `W` names, position by position, the one buffer each operation of the line writes. -/
def WritesAre (ops : List (HloOp τ sig Val)) (W : List (Ref sig .tc)) : Prop :=
  List.Forall₂ (fun op w => op.writes = {Proc.devRef (τ := τ) .tc w}) ops W

theorem WritesAre.drop {ops : List (HloOp τ sig Val)} {W : List (Ref sig .tc)} (h : WritesAre ops W) (k : Nat) :
    WritesAre (ops.drop k) (W.drop k) := List.forall₂_drop k h

/-- Lines run one after the other write what each writes, in order. -/
theorem WritesAre.append {l₁ l₂ : List (HloOp τ sig Val)} {W₁ W₂ : List (Ref sig .tc)} (h₁ : WritesAre l₁ W₁) (h₂ : WritesAre l₂ W₂) :
    WritesAre (l₁ ++ l₂) (W₁ ++ W₂) := List.rel_append h₁ h₂

theorem WritesAre.flatten {opss : List (List (HloOp τ sig Val))} {Ws : List (List (Ref sig .tc))}
    (h : List.Forall₂ WritesAre opss Ws) : WritesAre opss.flatten Ws.flatten := by
  induction h with
  | nil => exact List.Forall₂.nil
  | cons h _ ih => rw [List.flatten_cons, List.flatten_cons]; exact h.append ih

/-- A buffer that is not among the written ones is written by no operation of the line. -/
theorem WritesAre.not_written {ops : List (HloOp τ sig Val)} {W : List (Ref sig .tc)} (h : WritesAre ops W)
    {r : Ref sig .tc} (hr : r ∉ W) : ∀ op ∈ ops, Proc.devRef (τ := τ) .tc r ∉ op.writes := by
  induction h with
  | nil => intro op hop; cases hop
  | @cons op w ops W hw _ ih =>
    intro op' hop'
    rcases List.mem_cons.mp hop' with rfl | hop'
    · rw [hw, Finset.mem_singleton]
      intro he
      have e : r = w := Proc.devRef_injective _ he
      exact hr (e ▸ List.mem_cons_self)
    · exact ih (fun h' => hr (List.mem_cons_of_mem _ h')) op' hop'

/-- Such a buffer keeps its contents through the line. -/
theorem after_keep {ops : List (HloOp τ sig Val)} {W : List (Ref sig .tc)} (h : WritesAre ops W)
    {r : Ref sig .tc} (hr : r ∉ W) (V : Valuation τ sig Val) :
    after ops V (Proc.devRef .tc r) = V (Proc.devRef .tc r) :=
  after_of_forall_not_mem ops V (h.not_written hr)

/-- A buffer not written from position `k` on holds after the first `k` operations what it holds after all. -/
theorem after_take {ops : List (HloOp τ sig Val)} {W : List (Ref sig .tc)} (h : WritesAre ops W) {k : Nat}
    {a : Ref sig .tc} (ha : a ∉ W.drop k) (V : Valuation τ sig Val) :
    after (ops.take k) V (Proc.devRef .tc a) = after ops V (Proc.devRef .tc a) := by
  conv_rhs => rw [← List.take_append_drop k ops, after_append]
  exact (after_keep (h.drop k) ha _).symm

/-- The `k`-th result after the whole line is the `k`-th operation's result from the contents after the first `k`. -/
theorem after_at {ops : List (HloOp τ sig Val)} {W : List (Ref sig .tc)} (h : WritesAre ops W) (hnd : W.Nodup)
    {k : Nat} {op : HloOp τ sig Val} {y : Ref sig .tc} (hk : ops[k]? = some op) (hy : W[k]? = some y)
    (V : Valuation τ sig Val) :
    after ops V (Proc.devRef .tc y) = op.result (after (ops.take k) V) (Proc.devRef .tc y) := by
  obtain ⟨hlt, hop⟩ := List.getElem?_eq_some_iff.mp hk
  obtain ⟨hltW, hyW⟩ := List.getElem?_eq_some_iff.mp hy
  have hy' : y ∉ W.drop (k + 1) := by
    intro hm
    obtain ⟨i, hi, e⟩ := List.mem_drop_iff_getElem.mp hm
    have := hnd.getElem_inj_iff.mp (e.trans hyW.symm)
    omega
  conv_lhs => rw [← List.take_append_drop k ops, after_append, List.drop_eq_getElem_cons hlt, after_cons, hop]
  exact after_keep (h.drop (k + 1)) hy' _

/-- A reference's number among its space's buffers. -/
def num (r : Ref sig .tc) : Nat := r.idx.val

/-- Written buffers whose numbers are consecutive are pairwise distinct. -/
theorem nodup_of_nums {W : List (Ref sig .tc)} {s n : Nat} (h : W.map num = List.range' s n) : W.Nodup :=
  List.Nodup.of_map num (h ▸ List.nodup_range')

/-- A buffer numbered below the first written one is not written. -/
theorem not_mem_of_num_lt {W : List (Ref sig .tc)} {s n : Nat} (h : W.map num = List.range' s n) {a : Ref sig .tc}
    (ha : num a < s) : a ∉ W := by
  intro hm
  have hm' : num a ∈ W.map num := List.mem_map_of_mem hm
  rw [h, List.mem_range'_1] at hm'
  omega

/-- An operand written at an EARLIER position is not written from position `k` on. -/
theorem not_mem_drop_of_lt {W : List (Ref sig .tc)} (hnd : W.Nodup) {j k : Nat} {a : Ref sig .tc}
    (hj : W[j]? = some a) (hjk : j < k) : a ∉ W.drop k := by
  obtain ⟨hltW, haW⟩ := List.getElem?_eq_some_iff.mp hj
  intro hm
  obtain ⟨i, hi, e⟩ := List.mem_drop_iff_getElem.mp hm
  have := hnd.getElem_inj_iff.mp (e.trans haW.symm)
  omega

/-- An operand the line never writes is not written from position `k` on. -/
theorem not_mem_drop_of_not_mem {W : List (Ref sig .tc)} {a : Ref sig .tc} (h : a ∉ W) (k : Nat) : a ∉ W.drop k :=
  fun h' => h (List.mem_of_mem_drop h')

section Builders

variable {ops : List (HloOp τ sig Val)} {W : List (Ref sig .tc)} (h : WritesAre ops W) (hnd : W.Nodup) (k : Nat)
variable {x a b c e y : Ref sig .tc}
include h hnd

theorem at_nullary {v : y.ty.Contents Val} {hy'} (hk : ops[k]? = some (nullary (τ := τ) y v hy')) (hy : W[k]? = some y)
    (V : Valuation τ sig Val) : after ops V (Proc.devRef .tc y) = v :=
  (after_at h hnd hk hy V).trans (nullary_result y v hy' _)

theorem at_unary {f : x.ty.Contents Val → y.ty.Contents Val} {hx' hy'}
    (hk : ops[k]? = some (unary (τ := τ) x y f hx' hy')) (hy : W[k]? = some y) (hx : x ∉ W.drop k)
    (V : Valuation τ sig Val) : after ops V (Proc.devRef .tc y) = f (after ops V (Proc.devRef .tc x)) :=
  (after_at h hnd hk hy V).trans ((unary_result x y f hx' hy' _).trans (by rw [after_take h hx]))

theorem at_reshape {he : x.ty.elt = y.ty.elt} {hn : x.ty.shape.ShapeCasts y.ty.shape} {hx' hy'}
    (hk : ops[k]? = some (reshape (τ := τ) (Val := Val) x y he hn hx' hy')) (hy : W[k]? = some y) (hx : x ∉ W.drop k)
    (V : Valuation τ sig Val) :
    after ops V (Proc.devRef .tc y) = fun i => he ▸ shapeCast y.ty.shape (after ops V (Proc.devRef .tc x)) hn i :=
  (after_at h hnd hk hy V).trans ((reshape_result x y he hn hx' hy' _).trans (by rw [after_take h hx]))

theorem at_binary {f : a.ty.Contents Val → b.ty.Contents Val → y.ty.Contents Val} {ha' hb' hy'}
    (hk : ops[k]? = some (binary (τ := τ) a b y f ha' hb' hy')) (hy : W[k]? = some y)
    (ha : a ∉ W.drop k) (hb : b ∉ W.drop k) (V : Valuation τ sig Val) :
    after ops V (Proc.devRef .tc y) = f (after ops V (Proc.devRef .tc a)) (after ops V (Proc.devRef .tc b)) :=
  (after_at h hnd hk hy V).trans ((binary_result a b y f ha' hb' hy' _).trans (by rw [after_take h ha, after_take h hb]))

theorem at_ternary {f : c.ty.Contents Val → a.ty.Contents Val → b.ty.Contents Val → y.ty.Contents Val} {hc' ha' hb' hy'}
    (hk : ops[k]? = some (ternary (τ := τ) c a b y f hc' ha' hb' hy')) (hy : W[k]? = some y)
    (hc : c ∉ W.drop k) (ha : a ∉ W.drop k) (hb : b ∉ W.drop k) (V : Valuation τ sig Val) :
    after ops V (Proc.devRef .tc y)
      = f (after ops V (Proc.devRef .tc c)) (after ops V (Proc.devRef .tc a)) (after ops V (Proc.devRef .tc b)) :=
  (after_at h hnd hk hy V).trans ((ternary_result c a b y f hc' ha' hb' hy' _).trans
    (by rw [after_take h hc, after_take h ha, after_take h hb]))

theorem at_quaternary {f : a.ty.Contents Val → b.ty.Contents Val → c.ty.Contents Val → e.ty.Contents Val → y.ty.Contents Val}
    {ha' hb' hc' he' hy'}
    (hk : ops[k]? = some (quaternary (τ := τ) a b c e y f ha' hb' hc' he' hy')) (hy : W[k]? = some y)
    (ha : a ∉ W.drop k) (hb : b ∉ W.drop k) (hc : c ∉ W.drop k) (he : e ∉ W.drop k) (V : Valuation τ sig Val) :
    after ops V (Proc.devRef .tc y)
      = f (after ops V (Proc.devRef .tc a)) (after ops V (Proc.devRef .tc b)) (after ops V (Proc.devRef .tc c))
          (after ops V (Proc.devRef .tc e)) :=
  (after_at h hnd hk hy V).trans ((quaternary_result a b c e y f ha' hb' hc' he' hy' _).trans
    (by rw [after_take h ha, after_take h hb, after_take h hc, after_take h he]))

theorem at_nary {n : Nat} {xs : Fin n → Ref sig .tc} {f : ((i : Fin n) → (xs i).ty.Contents Val) → y.ty.Contents Val} {hxs' hy'}
    (hk : ops[k]? = some (nary (τ := τ) xs y f hxs' hy')) (hy : W[k]? = some y)
    (hxs : ∀ i, xs i ∉ W.drop k) (V : Valuation τ sig Val) :
    after ops V (Proc.devRef .tc y) = f (fun i => after ops V (Proc.devRef .tc (xs i))) :=
  (after_at h hnd hk hy V).trans ((nary_result xs y f hxs' hy' _).trans
    (congrArg f (funext fun i => after_take h (hxs i) V)))

end Builders

end Idealize.ShloMosaic.StableHlo.Line
-- ==== Proof.RefValue.lean ====
/-
  The reference's run, read window by window.

  @main is a straight line of 174 host operations in single-assignment form: each buffer is written once. It is cut
  here into fifteen windows, each ending where a layer's named intermediate is written (the neighbourhood means, the
  pre-activation, the row means, the row variances, the normalised rows, the layer's output). Every weakly fair
  execution terminates with each buffer at the fold of the operations over the launch contents. Because each buffer
  is written once, what a buffer holds after the whole line is what it holds right after its window, and a window's
  inputs hold, when the window starts, what they hold after the whole line; so each window gives one equation between
  whole-line contents: its output is its composed term of its inputs — the reading module's stage function, once the
  inputs are their own stage functions. Chained, the result buffer ends at the last stage function of the arguments.
-/
import proofs.«170888_j42030549959220_1_alg».proof.Proof.RefOps
import proofs.«170888_j42030549959220_1_alg».proof.Proof.RefRead
import proofs.«170888_j42030549959220_1_alg».proof.Proof.LibHostLine

noncomputable section

namespace Cert.ReferenceIdeal.RefValue

open Cert.ReferenceIdeal Cert.ReferenceIdeal.Gen Cert.ReferenceIdeal.RefOps Cert.ReferenceIdeal.RefRead
open Idealize.ShloMosaic Idealize.ShloMosaic.TcCoe Idealize.SL.Sem Idealize.ShloMosaic.StableHlo
open Idealize.ShloMosaic.StableHlo.Line (WritesAre after_keep after_take)

variable {F : FTy → Type} [FloatOps F]

/-- The buffers @main's operations write, in order. -/
abbrev Wall : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_cst_4, main_v29, main_v30, main_cst_5, main_v31, main_v32, main_v33, main_v34, main_v35, main_cst_6, main_v36, main_v37, main_cst_7, main_v38, main_v39, main_v40, main_v41, main_cst_8, main_v42, main_v43, main_v44, main_v45, main_v46, main_v47, main_v48, main_v49, main_v50, main_v51, main_v52, main_call0_cst, main_call0_v0, main_v53, main_v54, main_c_9, main_v55, main_v56, main_c_10, main_v57, main_v58, main_v59, main_v60, main_v61, main_cst_11, main_v62, main_v63, main_v64, main_cst_12, main_v65, main_cst_13, main_v66, main_v67, main_v68, main_cst_14, main_v69, main_v70, main_v71, main_v72, main_v73, main_v74, main_v75, main_v76, main_v77, main_v78, main_v79, main_cst_15, main_v80, main_v81, main_cst_16, main_v82, main_v83, main_v84, main_v85, main_v86, main_cst_17, main_v87, main_v88, main_cst_18, main_v89, main_v90, main_v91, main_v92, main_cst_19, main_v93, main_v94, main_v95, main_v96, main_v97, main_v98, main_v99, main_v100, main_v101, main_v102, main_v103, main_call1_cst, main_call1_v0, main_v104, main_v105, main_c_20, main_v106, main_v107, main_c_21, main_v108, main_v109, main_v110, main_v111, main_v112, main_cst_22, main_v113, main_v114, main_v115, main_cst_23, main_v116, main_cst_24, main_v117, main_v118, main_v119, main_cst_25, main_v120, main_v121, main_v122, main_v123, main_v124, main_v125, main_v126, main_v127, main_v128, main_v129, main_v130, main_v131, main_v132, main_cst_26, main_v133, main_v134, main_v135, main_cst_27, main_v136, main_v137, main_v138, main_v139]

theorem writesAll : WritesAre (τ := τ) (ops : List (HloOp τ sig (Elt F))) Wall := by
  unfold WritesAre
  repeat' (first | exact List.Forall₂.nil | apply List.Forall₂.cons)
  all_goals simp only [nullary_writes, unary_writes, binary_writes, ternary_writes, reshape_writes]

/-- What a buffer holds after the whole line is what it holds right after a window that ends at position j, when nothing
    from j on writes it: the fold over the window of the fold over the operations before the window. -/
theorem window_read {Val : EltTy → Type} {ops : List (HloOp τ sig Val)} {W : List (Ref sig .tc)} (h : WritesAre ops W)
    (i j : Nat) (win : List (HloOp τ sig Val)) (hwin : ops.take j = ops.take i ++ win) {y : Ref sig .tc}
    (hy : y ∉ W.drop j) (V : Valuation τ sig Val) :
    after ops V (Proc.devRef .tc y) = after win (after (ops.take i) V) (Proc.devRef .tc y) := by
  rw [← after_take h hy V, hwin, StableHlo.after_append]

/-- The window ending at v22: operations 1–29 of @main. -/
abbrev ops_v22 : List (HloOp τ sig (Elt F)) :=
  [ unary main_arg1 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg1 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    nullary main_c (constantI S_ 32 0#32),
    unary main_c main_v4 (broadcastInDim S1250000 ![] bcast_S_S1250000 : (⟨S_, .i32⟩ : BufTy).Contents (Elt F) → (⟨S1250000, .i32⟩ : BufTy).Contents (Elt F)),
    binary main_v1 main_v4 main_v5 (cmpi .slt : (⟨S1250000, .i32⟩ : BufTy).Contents (Elt F) → (⟨S1250000, .i32⟩ : BufTy).Contents (Elt F) → (⟨S1250000, .i1⟩ : BufTy).Contents (Elt F)),
    nullary main_c_0 (constantI S_ 32 100000#32),
    unary main_c_0 main_v6 (broadcastInDim S1250000 ![] bcast_S_S1250000 : (⟨S_, .i32⟩ : BufTy).Contents (Elt F) → (⟨S1250000, .i32⟩ : BufTy).Contents (Elt F)),
    binary main_v1 main_v6 main_v7 (addi : (⟨S1250000, .i32⟩ : BufTy).Contents (Elt F) → (⟨S1250000, .i32⟩ : BufTy).Contents (Elt F) → (⟨S1250000, .i32⟩ : BufTy).Contents (Elt F)),
    ternary main_v5 main_v7 main_v1 main_v8 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v8 main_v9 (broadcastInDim S1250000x1 ![0] bcast_S1250000_S1250000x1_0 : (⟨S1250000, .i32⟩ : BufTy).Contents (Elt F) → (⟨S1250000x1, .i32⟩ : BufTy).Contents (Elt F)),
    binary main_arg0 main_v9 main_v10 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1250000x1 ![0] bcast_S1250000_S1250000x1_0 : (⟨S1250000, .i32⟩ : BufTy).Contents (Elt F) → (⟨S1250000x1, .i32⟩ : BufTy).Contents (Elt F)),
    ternary main_v11 main_v12 main_v10 main_v13 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    nullary main_cst_1 (constant S_ .f32 0x3F800000#32),
    unary main_cst_1 main_v14 (broadcastInDim S1250000 ![] bcast_S_S1250000 : (⟨S_, .f32⟩ : BufTy).Contents (Elt F) → (⟨S1250000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1250000x1 ![0] bcast_S1250000_S1250000x1_0 : (⟨S1250000, .i32⟩ : BufTy).Contents (Elt F) → (⟨S1250000x1, .i32⟩ : BufTy).Contents (Elt F)),
    ternary main_v15 main_v16 main_v14 main_v17 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)) ]

theorem take_v22 : (ops : List (HloOp τ sig (Elt F))).take 29 = (ops : List (HloOp τ sig (Elt F))).take 0 ++ ops_v22 := rfl

/-- The window ending at v28: operations 30–35 of @main. -/
abbrev ops_v28 : List (HloOp τ sig (Elt F)) :=
  [ binary main_v22 main_arg2 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    binary main_arg0 main_arg4 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v26 main_v27 main_v28 (addf : (⟨S100000x64, .f32⟩ : BufTy).Contents (Elt F) → (⟨S100000x64, .f32⟩ : BufTy).Contents (Elt F) → (⟨S100000x64, .f32⟩ : BufTy).Contents (Elt F)) ]

theorem take_v28 : (ops : List (HloOp τ sig (Elt F))).take 35 = (ops : List (HloOp τ sig (Elt F))).take 29 ++ ops_v28 := rfl

/-- The window ending at v32: operations 36–41 of @main. -/
abbrev ops_v32 : List (HloOp τ sig (Elt F)) :=
  [ nullary main_cst_4 (constant S_ .f32 0x00000000#32),
    binary main_v28 main_cst_4 main_v29 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v29 main_v30 (broadcastInDim S100000x1 ![0] bcast_S100000_S100000x1_0 : (⟨S100000, .f32⟩ : BufTy).Contents (Elt F) → (⟨S100000x1, .f32⟩ : BufTy).Contents (Elt F)),
    nullary main_cst_5 (constant S_ .f32 0x42800000#32),
    unary main_cst_5 main_v31 (broadcastInDim S100000x1 ![] bcast_S_S100000x1 : (⟨S_, .f32⟩ : BufTy).Contents (Elt F) → (⟨S100000x1, .f32⟩ : BufTy).Contents (Elt F)),
    binary main_v30 main_v31 main_v32 (Host.divf : (⟨S100000x1, .f32⟩ : BufTy).Contents (Elt F) → (⟨S100000x1, .f32⟩ : BufTy).Contents (Elt F) → (⟨S100000x1, .f32⟩ : BufTy).Contents (Elt F)) ]

theorem take_v32 : (ops : List (HloOp τ sig (Elt F))).take 41 = (ops : List (HloOp τ sig (Elt F))).take 35 ++ ops_v32 := rfl

/-- The window ending at v39: operations 42–50 of @main. -/
abbrev ops_v39 : List (HloOp τ sig (Elt F)) :=
  [ unary main_v32 main_v33 (broadcastInDim S100000x64 ![0, 1] bcast_S100000x1_S100000x64_0_1 : (⟨S100000x1, .f32⟩ : BufTy).Contents (Elt F) → (⟨S100000x64, .f32⟩ : BufTy).Contents (Elt F)),
    binary main_v28 main_v33 main_v34 (subf : (⟨S100000x64, .f32⟩ : BufTy).Contents (Elt F) → (⟨S100000x64, .f32⟩ : BufTy).Contents (Elt F) → (⟨S100000x64, .f32⟩ : BufTy).Contents (Elt F)),
    binary main_v34 main_v34 main_v35 (mulf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x00000000#32),
    binary main_v35 main_cst_6 main_v36 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    nullary main_cst_7 (constant S_ .f32 0x42800000#32),
    unary main_cst_7 main_v38 (broadcastInDim S100000x1 ![] bcast_S_S100000x1 : (⟨S_, .f32⟩ : BufTy).Contents (Elt F) → (⟨S100000x1, .f32⟩ : BufTy).Contents (Elt F)),
    binary main_v37 main_v38 main_v39 (Host.divf : (⟨S100000x1, .f32⟩ : BufTy).Contents (Elt F) → (⟨S100000x1, .f32⟩ : BufTy).Contents (Elt F) → (⟨S100000x1, .f32⟩ : BufTy).Contents (Elt F)) ]

theorem take_v39 : (ops : List (HloOp τ sig (Elt F))).take 50 = (ops : List (HloOp τ sig (Elt F))).take 41 ++ ops_v39 := rfl

/-- The window ending at v46: operations 51–58 of @main. -/
abbrev ops_v46 : List (HloOp τ sig (Elt F)) :=
  [ unary main_v32 main_v40 (broadcastInDim S100000x64 ![0, 1] bcast_S100000x1_S100000x64_0_1 : (⟨S100000x1, .f32⟩ : BufTy).Contents (Elt F) → (⟨S100000x64, .f32⟩ : BufTy).Contents (Elt F)),
    binary main_v28 main_v40 main_v41 (subf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3727C5AC#32),
    unary main_cst_8 main_v42 (broadcastInDim S100000x1 ![] bcast_S_S100000x1 : (⟨S_, .f32⟩ : BufTy).Contents (Elt F) → (⟨S100000x1, .f32⟩ : BufTy).Contents (Elt F)),
    binary main_v39 main_v42 main_v43 (addf : (⟨S100000x1, .f32⟩ : BufTy).Contents (Elt F) → (⟨S100000x1, .f32⟩ : BufTy).Contents (Elt F) → (⟨S100000x1, .f32⟩ : BufTy).Contents (Elt F)),
    unary main_v43 main_v44 (Host.rsqrt : (⟨S100000x1, .f32⟩ : BufTy).Contents (Elt F) → (⟨S100000x1, .f32⟩ : BufTy).Contents (Elt F)),
    unary main_v44 main_v45 (broadcastInDim S100000x64 ![0, 1] bcast_S100000x1_S100000x64_0_1 : (⟨S100000x1, .f32⟩ : BufTy).Contents (Elt F) → (⟨S100000x64, .f32⟩ : BufTy).Contents (Elt F)),
    binary main_v41 main_v45 main_v46 (mulf : (⟨S100000x64, .f32⟩ : BufTy).Contents (Elt F) → (⟨S100000x64, .f32⟩ : BufTy).Contents (Elt F) → (⟨S100000x64, .f32⟩ : BufTy).Contents (Elt F)) ]

theorem take_v46 : (ops : List (HloOp τ sig (Elt F))).take 58 = (ops : List (HloOp τ sig (Elt F))).take 50 ++ ops_v46 := rfl

/-- The window ending at v54: operations 59–68 of @main. -/
abbrev ops_v54 : List (HloOp τ sig (Elt F)) :=
  [ unary main_arg11 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (mulf : (⟨S100000x64, .f32⟩ : BufTy).Contents (Elt F) → (⟨S100000x64, .f32⟩ : BufTy).Contents (Elt F) → (⟨S100000x64, .f32⟩ : BufTy).Contents (Elt F)),
    unary main_arg12 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v52) (TRef.of (T := ⟨S100000x64, .f32⟩) main_call0_v0) (TRef.of (T := ⟨S100000x64, .f32⟩) main_v53) maximumf,
    binary main_v53 main_arg0 main_v54 (addf : (⟨S100000x64, .f32⟩ : BufTy).Contents (Elt F) → (⟨S100000x64, .f32⟩ : BufTy).Contents (Elt F) → (⟨S100000x64, .f32⟩ : BufTy).Contents (Elt F)) ]

theorem take_v54 : (ops : List (HloOp τ sig (Elt F))).take 68 = (ops : List (HloOp τ sig (Elt F))).take 58 ++ ops_v54 := rfl

/-- The window ending at v73: operations 69–93 of @main. -/
abbrev ops_v73 : List (HloOp τ sig (Elt F)) :=
  [ nullary main_c_9 (constantI S_ 32 0#32),
    unary main_c_9 main_v55 (broadcastInDim S1250000 ![] bcast_S_S1250000 : (⟨S_, .i32⟩ : BufTy).Contents (Elt F) → (⟨S1250000, .i32⟩ : BufTy).Contents (Elt F)),
    binary main_v1 main_v55 main_v56 (cmpi .slt : (⟨S1250000, .i32⟩ : BufTy).Contents (Elt F) → (⟨S1250000, .i32⟩ : BufTy).Contents (Elt F) → (⟨S1250000, .i1⟩ : BufTy).Contents (Elt F)),
    nullary main_c_10 (constantI S_ 32 100000#32),
    unary main_c_10 main_v57 (broadcastInDim S1250000 ![] bcast_S_S1250000 : (⟨S_, .i32⟩ : BufTy).Contents (Elt F) → (⟨S1250000, .i32⟩ : BufTy).Contents (Elt F)),
    binary main_v1 main_v57 main_v58 (addi : (⟨S1250000, .i32⟩ : BufTy).Contents (Elt F) → (⟨S1250000, .i32⟩ : BufTy).Contents (Elt F) → (⟨S1250000, .i32⟩ : BufTy).Contents (Elt F)),
    ternary main_v56 main_v58 main_v1 main_v59 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v59 main_v60 (broadcastInDim S1250000x1 ![0] bcast_S1250000_S1250000x1_0 : (⟨S1250000, .i32⟩ : BufTy).Contents (Elt F) → (⟨S1250000x1, .i32⟩ : BufTy).Contents (Elt F)),
    binary main_v54 main_v60 main_v61 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_11 (constant S_ .f32 0x00000000#32),
    unary main_cst_11 main_v62 (broadcastInDim S100000x64 ![] bcast_S_S100000x64 : (⟨S_, .f32⟩ : BufTy).Contents (Elt F) → (⟨S100000x64, .f32⟩ : BufTy).Contents (Elt F)),
    unary main_v3 main_v63 (broadcastInDim S1250000x1 ![0] bcast_S1250000_S1250000x1_0 : (⟨S1250000, .i32⟩ : BufTy).Contents (Elt F) → (⟨S1250000x1, .i32⟩ : BufTy).Contents (Elt F)),
    ternary main_v62 main_v63 main_v61 main_v64 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    nullary main_cst_12 (constant S_ .f32 0x3F800000#32),
    unary main_cst_12 main_v65 (broadcastInDim S1250000 ![] bcast_S_S1250000 : (⟨S_, .f32⟩ : BufTy).Contents (Elt F) → (⟨S1250000, .f32⟩ : BufTy).Contents (Elt F)),
    nullary main_cst_13 (constant S_ .f32 0x00000000#32),
    unary main_cst_13 main_v66 (broadcastInDim S100000 ![] bcast_S_S100000 : (⟨S_, .f32⟩ : BufTy).Contents (Elt F) → (⟨S100000, .f32⟩ : BufTy).Contents (Elt F)),
    unary main_v3 main_v67 (broadcastInDim S1250000x1 ![0] bcast_S1250000_S1250000x1_0 : (⟨S1250000, .i32⟩ : BufTy).Contents (Elt F) → (⟨S1250000x1, .i32⟩ : BufTy).Contents (Elt F)),
    ternary main_v66 main_v67 main_v65 main_v68 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_14 (constant S_ .f32 0x3F800000#32),
    unary main_cst_14 main_v69 (broadcastInDim S100000 ![] bcast_S_S100000 : (⟨S_, .f32⟩ : BufTy).Contents (Elt F) → (⟨S100000, .f32⟩ : BufTy).Contents (Elt F)),
    binary main_v68 main_v69 main_v70 (maximumf : (⟨S100000, .f32⟩ : BufTy).Contents (Elt F) → (⟨S100000, .f32⟩ : BufTy).Contents (Elt F) → (⟨S100000, .f32⟩ : BufTy).Contents (Elt F)),
    unary main_v70 main_v71 (broadcastInDim S100000x1 ![0] bcast_S100000_S100000x1_0 : (⟨S100000, .f32⟩ : BufTy).Contents (Elt F) → (⟨S100000x1, .f32⟩ : BufTy).Contents (Elt F)),
    unary main_v71 main_v72 (broadcastInDim S100000x64 ![0, 1] bcast_S100000x1_S100000x64_0_1 : (⟨S100000x1, .f32⟩ : BufTy).Contents (Elt F) → (⟨S100000x64, .f32⟩ : BufTy).Contents (Elt F)),
    binary main_v64 main_v72 main_v73 (Host.divf : (⟨S100000x64, .f32⟩ : BufTy).Contents (Elt F) → (⟨S100000x64, .f32⟩ : BufTy).Contents (Elt F) → (⟨S100000x64, .f32⟩ : BufTy).Contents (Elt F)) ]

theorem take_v73 : (ops : List (HloOp τ sig (Elt F))).take 93 = (ops : List (HloOp τ sig (Elt F))).take 68 ++ ops_v73 := rfl

/-- The window ending at v79: operations 94–99 of @main. -/
abbrev ops_v79 : List (HloOp τ sig (Elt F)) :=
  [ binary main_v73 main_arg5 main_v74 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v75 (broadcastInDim S1x64 ![1] bcast_S64_S1x64_1 : (⟨S64, .f32⟩ : BufTy).Contents (Elt F) → (⟨S1x64, .f32⟩ : BufTy).Contents (Elt F)),
    unary main_v75 main_v76 (broadcastInDim S100000x64 ![0, 1] bcast_S1x64_S100000x64_0_1 : (⟨S1x64, .f32⟩ : BufTy).Contents (Elt F) → (⟨S100000x64, .f32⟩ : BufTy).Contents (Elt F)),
    binary main_v74 main_v76 main_v77 (addf : (⟨S100000x64, .f32⟩ : BufTy).Contents (Elt F) → (⟨S100000x64, .f32⟩ : BufTy).Contents (Elt F) → (⟨S100000x64, .f32⟩ : BufTy).Contents (Elt F)),
    binary main_v54 main_arg7 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v77 main_v78 main_v79 (addf : (⟨S100000x64, .f32⟩ : BufTy).Contents (Elt F) → (⟨S100000x64, .f32⟩ : BufTy).Contents (Elt F) → (⟨S100000x64, .f32⟩ : BufTy).Contents (Elt F)) ]

theorem take_v79 : (ops : List (HloOp τ sig (Elt F))).take 99 = (ops : List (HloOp τ sig (Elt F))).take 93 ++ ops_v79 := rfl

/-- The window ending at v83: operations 100–105 of @main. -/
abbrev ops_v83 : List (HloOp τ sig (Elt F)) :=
  [ nullary main_cst_15 (constant S_ .f32 0x00000000#32),
    binary main_v79 main_cst_15 main_v80 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v80 main_v81 (broadcastInDim S100000x1 ![0] bcast_S100000_S100000x1_0 : (⟨S100000, .f32⟩ : BufTy).Contents (Elt F) → (⟨S100000x1, .f32⟩ : BufTy).Contents (Elt F)),
    nullary main_cst_16 (constant S_ .f32 0x42800000#32),
    unary main_cst_16 main_v82 (broadcastInDim S100000x1 ![] bcast_S_S100000x1 : (⟨S_, .f32⟩ : BufTy).Contents (Elt F) → (⟨S100000x1, .f32⟩ : BufTy).Contents (Elt F)),
    binary main_v81 main_v82 main_v83 (Host.divf : (⟨S100000x1, .f32⟩ : BufTy).Contents (Elt F) → (⟨S100000x1, .f32⟩ : BufTy).Contents (Elt F) → (⟨S100000x1, .f32⟩ : BufTy).Contents (Elt F)) ]

theorem take_v83 : (ops : List (HloOp τ sig (Elt F))).take 105 = (ops : List (HloOp τ sig (Elt F))).take 99 ++ ops_v83 := rfl

/-- The window ending at v90: operations 106–114 of @main. -/
abbrev ops_v90 : List (HloOp τ sig (Elt F)) :=
  [ unary main_v83 main_v84 (broadcastInDim S100000x64 ![0, 1] bcast_S100000x1_S100000x64_0_1 : (⟨S100000x1, .f32⟩ : BufTy).Contents (Elt F) → (⟨S100000x64, .f32⟩ : BufTy).Contents (Elt F)),
    binary main_v79 main_v84 main_v85 (subf : (⟨S100000x64, .f32⟩ : BufTy).Contents (Elt F) → (⟨S100000x64, .f32⟩ : BufTy).Contents (Elt F) → (⟨S100000x64, .f32⟩ : BufTy).Contents (Elt F)),
    binary main_v85 main_v85 main_v86 (mulf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v86 main_cst_17 main_v87 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v87 main_v88 (broadcastInDim S100000x1 ![0] bcast_S100000_S100000x1_0 : (⟨S100000, .f32⟩ : BufTy).Contents (Elt F) → (⟨S100000x1, .f32⟩ : BufTy).Contents (Elt F)),
    nullary main_cst_18 (constant S_ .f32 0x42800000#32),
    unary main_cst_18 main_v89 (broadcastInDim S100000x1 ![] bcast_S_S100000x1 : (⟨S_, .f32⟩ : BufTy).Contents (Elt F) → (⟨S100000x1, .f32⟩ : BufTy).Contents (Elt F)),
    binary main_v88 main_v89 main_v90 (Host.divf : (⟨S100000x1, .f32⟩ : BufTy).Contents (Elt F) → (⟨S100000x1, .f32⟩ : BufTy).Contents (Elt F) → (⟨S100000x1, .f32⟩ : BufTy).Contents (Elt F)) ]

theorem take_v90 : (ops : List (HloOp τ sig (Elt F))).take 114 = (ops : List (HloOp τ sig (Elt F))).take 105 ++ ops_v90 := rfl

/-- The window ending at v97: operations 115–122 of @main. -/
abbrev ops_v97 : List (HloOp τ sig (Elt F)) :=
  [ unary main_v83 main_v91 (broadcastInDim S100000x64 ![0, 1] bcast_S100000x1_S100000x64_0_1 : (⟨S100000x1, .f32⟩ : BufTy).Contents (Elt F) → (⟨S100000x64, .f32⟩ : BufTy).Contents (Elt F)),
    binary main_v79 main_v91 main_v92 (subf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v93 (broadcastInDim S100000x1 ![] bcast_S_S100000x1 : (⟨S_, .f32⟩ : BufTy).Contents (Elt F) → (⟨S100000x1, .f32⟩ : BufTy).Contents (Elt F)),
    binary main_v90 main_v93 main_v94 (addf : (⟨S100000x1, .f32⟩ : BufTy).Contents (Elt F) → (⟨S100000x1, .f32⟩ : BufTy).Contents (Elt F) → (⟨S100000x1, .f32⟩ : BufTy).Contents (Elt F)),
    unary main_v94 main_v95 (Host.rsqrt : (⟨S100000x1, .f32⟩ : BufTy).Contents (Elt F) → (⟨S100000x1, .f32⟩ : BufTy).Contents (Elt F)),
    unary main_v95 main_v96 (broadcastInDim S100000x64 ![0, 1] bcast_S100000x1_S100000x64_0_1 : (⟨S100000x1, .f32⟩ : BufTy).Contents (Elt F) → (⟨S100000x64, .f32⟩ : BufTy).Contents (Elt F)),
    binary main_v92 main_v96 main_v97 (mulf : (⟨S100000x64, .f32⟩ : BufTy).Contents (Elt F) → (⟨S100000x64, .f32⟩ : BufTy).Contents (Elt F) → (⟨S100000x64, .f32⟩ : BufTy).Contents (Elt F)) ]

theorem take_v97 : (ops : List (HloOp τ sig (Elt F))).take 122 = (ops : List (HloOp τ sig (Elt F))).take 114 ++ ops_v97 := rfl

/-- The window ending at v105: operations 123–132 of @main. -/
abbrev ops_v105 : List (HloOp τ sig (Elt F)) :=
  [ unary main_arg13 main_v98 (broadcastInDim S1x64 ![1] bcast_S64_S1x64_1 : (⟨S64, .f32⟩ : BufTy).Contents (Elt F) → (⟨S1x64, .f32⟩ : BufTy).Contents (Elt F)),
    unary main_v98 main_v99 (broadcastInDim S100000x64 ![0, 1] bcast_S1x64_S100000x64_0_1 : (⟨S1x64, .f32⟩ : BufTy).Contents (Elt F) → (⟨S100000x64, .f32⟩ : BufTy).Contents (Elt F)),
    binary main_v97 main_v99 main_v100 (mulf : (⟨S100000x64, .f32⟩ : BufTy).Contents (Elt F) → (⟨S100000x64, .f32⟩ : BufTy).Contents (Elt F) → (⟨S100000x64, .f32⟩ : BufTy).Contents (Elt F)),
    unary main_arg14 main_v101 (broadcastInDim S1x64 ![1] bcast_S64_S1x64_1 : (⟨S64, .f32⟩ : BufTy).Contents (Elt F) → (⟨S1x64, .f32⟩ : BufTy).Contents (Elt F)),
    unary main_v101 main_v102 (broadcastInDim S100000x64 ![0, 1] bcast_S1x64_S100000x64_0_1 : (⟨S1x64, .f32⟩ : BufTy).Contents (Elt F) → (⟨S100000x64, .f32⟩ : BufTy).Contents (Elt F)),
    binary main_v100 main_v102 main_v103 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v103) (TRef.of (T := ⟨S100000x64, .f32⟩) main_call1_v0) (TRef.of (T := ⟨S100000x64, .f32⟩) main_v104) maximumf,
    binary main_v104 main_v54 main_v105 (addf : (⟨S100000x64, .f32⟩ : BufTy).Contents (Elt F) → (⟨S100000x64, .f32⟩ : BufTy).Contents (Elt F) → (⟨S100000x64, .f32⟩ : BufTy).Contents (Elt F)) ]

theorem take_v105 : (ops : List (HloOp τ sig (Elt F))).take 132 = (ops : List (HloOp τ sig (Elt F))).take 122 ++ ops_v105 := rfl

/-- The window ending at v124: operations 133–157 of @main. -/
abbrev ops_v124 : List (HloOp τ sig (Elt F)) :=
  [ nullary main_c_20 (constantI S_ 32 0#32),
    unary main_c_20 main_v106 (broadcastInDim S1250000 ![] bcast_S_S1250000 : (⟨S_, .i32⟩ : BufTy).Contents (Elt F) → (⟨S1250000, .i32⟩ : BufTy).Contents (Elt F)),
    binary main_v1 main_v106 main_v107 (cmpi .slt : (⟨S1250000, .i32⟩ : BufTy).Contents (Elt F) → (⟨S1250000, .i32⟩ : BufTy).Contents (Elt F) → (⟨S1250000, .i1⟩ : BufTy).Contents (Elt F)),
    nullary main_c_21 (constantI S_ 32 100000#32),
    unary main_c_21 main_v108 (broadcastInDim S1250000 ![] bcast_S_S1250000 : (⟨S_, .i32⟩ : BufTy).Contents (Elt F) → (⟨S1250000, .i32⟩ : BufTy).Contents (Elt F)),
    binary main_v1 main_v108 main_v109 (addi : (⟨S1250000, .i32⟩ : BufTy).Contents (Elt F) → (⟨S1250000, .i32⟩ : BufTy).Contents (Elt F) → (⟨S1250000, .i32⟩ : BufTy).Contents (Elt F)),
    ternary main_v107 main_v109 main_v1 main_v110 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v110 main_v111 (broadcastInDim S1250000x1 ![0] bcast_S1250000_S1250000x1_0 : (⟨S1250000, .i32⟩ : BufTy).Contents (Elt F) → (⟨S1250000x1, .i32⟩ : BufTy).Contents (Elt F)),
    binary main_v105 main_v111 main_v112 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    nullary main_cst_22 (constant S_ .f32 0x00000000#32),
    unary main_cst_22 main_v113 (broadcastInDim S100000x64 ![] bcast_S_S100000x64 : (⟨S_, .f32⟩ : BufTy).Contents (Elt F) → (⟨S100000x64, .f32⟩ : BufTy).Contents (Elt F)),
    unary main_v3 main_v114 (broadcastInDim S1250000x1 ![0] bcast_S1250000_S1250000x1_0 : (⟨S1250000, .i32⟩ : BufTy).Contents (Elt F) → (⟨S1250000x1, .i32⟩ : BufTy).Contents (Elt F)),
    ternary main_v113 main_v114 main_v112 main_v115 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    nullary main_cst_23 (constant S_ .f32 0x3F800000#32),
    unary main_cst_23 main_v116 (broadcastInDim S1250000 ![] bcast_S_S1250000 : (⟨S_, .f32⟩ : BufTy).Contents (Elt F) → (⟨S1250000, .f32⟩ : BufTy).Contents (Elt F)),
    nullary main_cst_24 (constant S_ .f32 0x00000000#32),
    unary main_cst_24 main_v117 (broadcastInDim S100000 ![] bcast_S_S100000 : (⟨S_, .f32⟩ : BufTy).Contents (Elt F) → (⟨S100000, .f32⟩ : BufTy).Contents (Elt F)),
    unary main_v3 main_v118 (broadcastInDim S1250000x1 ![0] bcast_S1250000_S1250000x1_0 : (⟨S1250000, .i32⟩ : BufTy).Contents (Elt F) → (⟨S1250000x1, .i32⟩ : BufTy).Contents (Elt F)),
    ternary main_v117 main_v118 main_v116 main_v119 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    nullary main_cst_25 (constant S_ .f32 0x3F800000#32),
    unary main_cst_25 main_v120 (broadcastInDim S100000 ![] bcast_S_S100000 : (⟨S_, .f32⟩ : BufTy).Contents (Elt F) → (⟨S100000, .f32⟩ : BufTy).Contents (Elt F)),
    binary main_v119 main_v120 main_v121 (maximumf : (⟨S100000, .f32⟩ : BufTy).Contents (Elt F) → (⟨S100000, .f32⟩ : BufTy).Contents (Elt F) → (⟨S100000, .f32⟩ : BufTy).Contents (Elt F)),
    unary main_v121 main_v122 (broadcastInDim S100000x1 ![0] bcast_S100000_S100000x1_0 : (⟨S100000, .f32⟩ : BufTy).Contents (Elt F) → (⟨S100000x1, .f32⟩ : BufTy).Contents (Elt F)),
    unary main_v122 main_v123 (broadcastInDim S100000x64 ![0, 1] bcast_S100000x1_S100000x64_0_1 : (⟨S100000x1, .f32⟩ : BufTy).Contents (Elt F) → (⟨S100000x64, .f32⟩ : BufTy).Contents (Elt F)),
    binary main_v115 main_v123 main_v124 (Host.divf : (⟨S100000x64, .f32⟩ : BufTy).Contents (Elt F) → (⟨S100000x64, .f32⟩ : BufTy).Contents (Elt F) → (⟨S100000x64, .f32⟩ : BufTy).Contents (Elt F)) ]

theorem take_v124 : (ops : List (HloOp τ sig (Elt F))).take 157 = (ops : List (HloOp τ sig (Elt F))).take 132 ++ ops_v124 := rfl

/-- The window ending at v131: operations 158–164 of @main. -/
abbrev ops_v131 : List (HloOp τ sig (Elt F)) :=
  [ binary main_v124 main_arg8 main_v125 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg9 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v125 main_v127 main_v128 (addf : (⟨S100000x64, .f32⟩ : BufTy).Contents (Elt F) → (⟨S100000x64, .f32⟩ : BufTy).Contents (Elt F) → (⟨S100000x64, .f32⟩ : BufTy).Contents (Elt F)),
    binary main_v105 main_arg10 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v128 main_v129 main_v130 (addf : (⟨S100000x64, .f32⟩ : BufTy).Contents (Elt F) → (⟨S100000x64, .f32⟩ : BufTy).Contents (Elt F) → (⟨S100000x64, .f32⟩ : BufTy).Contents (Elt F)),
    binary main_v130 main_v105 main_v131 (addf : (⟨S100000x64, .f32⟩ : BufTy).Contents (Elt F) → (⟨S100000x64, .f32⟩ : BufTy).Contents (Elt F) → (⟨S100000x64, .f32⟩ : BufTy).Contents (Elt F)) ]

theorem take_v131 : (ops : List (HloOp τ sig (Elt F))).take 164 = (ops : List (HloOp τ sig (Elt F))).take 157 ++ ops_v131 := rfl

/-- The window ending at v139: operations 165–174 of @main. -/
abbrev ops_v139 : List (HloOp τ sig (Elt F)) :=
  [ binary main_v131 main_v131 main_v132 (mulf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x00000000#32),
    binary main_v132 main_cst_26 main_v133 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v133 main_v134 (broadcastInDim S100000x1 ![0] bcast_S100000_S100000x1_0 : (⟨S100000, .f32⟩ : BufTy).Contents (Elt F) → (⟨S100000x1, .f32⟩ : BufTy).Contents (Elt F)),
    unary main_v134 main_v135 (Host.sqrt : (⟨S100000x1, .f32⟩ : BufTy).Contents (Elt F) → (⟨S100000x1, .f32⟩ : BufTy).Contents (Elt F)),
    nullary main_cst_27 (constant S_ .f32 0x2B8CBCCC#32),
    unary main_cst_27 main_v136 (broadcastInDim S100000x1 ![] bcast_S_S100000x1 : (⟨S_, .f32⟩ : BufTy).Contents (Elt F) → (⟨S100000x1, .f32⟩ : BufTy).Contents (Elt F)),
    binary main_v135 main_v136 main_v137 (maximumf : (⟨S100000x1, .f32⟩ : BufTy).Contents (Elt F) → (⟨S100000x1, .f32⟩ : BufTy).Contents (Elt F) → (⟨S100000x1, .f32⟩ : BufTy).Contents (Elt F)),
    unary main_v137 main_v138 (broadcastInDim S100000x64 ![0, 1] bcast_S100000x1_S100000x64_0_1 : (⟨S100000x1, .f32⟩ : BufTy).Contents (Elt F) → (⟨S100000x64, .f32⟩ : BufTy).Contents (Elt F)),
    binary main_v131 main_v138 main_v139 (Host.divf : (⟨S100000x64, .f32⟩ : BufTy).Contents (Elt F) → (⟨S100000x64, .f32⟩ : BufTy).Contents (Elt F) → (⟨S100000x64, .f32⟩ : BufTy).Contents (Elt F)) ]

theorem take_v139 : (ops : List (HloOp τ sig (Elt F))).take 174 = (ops : List (HloOp τ sig (Elt F))).take 164 ++ ops_v139 := rfl

/-! ## What each window leaves in its output, given what its inputs hold -/

section Windows

variable (U : Valuation τ sig (Elt Ideal))

set_option maxHeartbeats 4000000 in
theorem win_v22 (x0 : (⟨S100000x64, .f32⟩ : BufTy).Contents (Elt Ideal)) (x1 : (⟨S2x1250000, .i32⟩ : BufTy).Contents (Elt Ideal))
    (h_arg1 : U (Proc.devRef .tc main_arg1) = x1) (h_arg0 : U (Proc.devRef .tc main_arg0) = x0) :
    after ops_v22 U (Proc.devRef .tc main_v22) = val_main_v22 (F := Ideal) x0 x1 := by
  after_results_simp
  simp only [cast_eq, h_arg1, h_arg0]
  simp only [val_main_v0, val_main_v1, val_main_v2, val_main_v3, val_main_c, val_main_v4, val_main_v5, val_main_c_0, val_main_v6, val_main_v7, val_main_v8, val_main_v9, val_main_v10, val_main_cst, val_main_v11, val_main_v12, val_main_v13, val_main_cst_1, val_main_v14, val_main_cst_2, val_main_v15, val_main_v16, val_main_v17, val_main_cst_3, val_main_v18, val_main_v19, val_main_v20, val_main_v21, val_main_v22] <;> rfl

set_option maxHeartbeats 4000000 in
theorem win_v1 (x0 : (⟨S100000x64, .f32⟩ : BufTy).Contents (Elt Ideal)) (x1 : (⟨S2x1250000, .i32⟩ : BufTy).Contents (Elt Ideal))
    (h_arg1 : U (Proc.devRef .tc main_arg1) = x1) (h_arg0 : U (Proc.devRef .tc main_arg0) = x0) :
    after ops_v22 U (Proc.devRef .tc main_v1) = val_main_v1 (F := Ideal) x1 := by
  after_results_simp
  simp only [cast_eq, h_arg1, h_arg0]
  simp only [val_main_v0, val_main_v1, val_main_v2, val_main_v3, val_main_c, val_main_v4, val_main_v5, val_main_c_0, val_main_v6, val_main_v7, val_main_v8, val_main_v9, val_main_v10, val_main_cst, val_main_v11, val_main_v12, val_main_v13, val_main_cst_1, val_main_v14, val_main_cst_2, val_main_v15, val_main_v16, val_main_v17, val_main_cst_3, val_main_v18, val_main_v19, val_main_v20, val_main_v21, val_main_v22] <;> rfl

set_option maxHeartbeats 4000000 in
theorem win_v3 (x0 : (⟨S100000x64, .f32⟩ : BufTy).Contents (Elt Ideal)) (x1 : (⟨S2x1250000, .i32⟩ : BufTy).Contents (Elt Ideal))
    (h_arg1 : U (Proc.devRef .tc main_arg1) = x1) (h_arg0 : U (Proc.devRef .tc main_arg0) = x0) :
    after ops_v22 U (Proc.devRef .tc main_v3) = val_main_v3 (F := Ideal) x1 := by
  after_results_simp
  simp only [cast_eq, h_arg1, h_arg0]
  simp only [val_main_v0, val_main_v1, val_main_v2, val_main_v3, val_main_c, val_main_v4, val_main_v5, val_main_c_0, val_main_v6, val_main_v7, val_main_v8, val_main_v9, val_main_v10, val_main_cst, val_main_v11, val_main_v12, val_main_v13, val_main_cst_1, val_main_v14, val_main_cst_2, val_main_v15, val_main_v16, val_main_v17, val_main_cst_3, val_main_v18, val_main_v19, val_main_v20, val_main_v21, val_main_v22] <;> rfl

set_option maxHeartbeats 4000000 in
theorem win_v28 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (h_v22 : U (Proc.devRef .tc main_v22) = val_main_v22 (F := Ideal) x0 x1) (h_arg2 : U (Proc.devRef .tc main_arg2) = x2) (h_arg3 : U (Proc.devRef .tc main_arg3) = x3) (h_arg0 : U (Proc.devRef .tc main_arg0) = x0) (h_arg4 : U (Proc.devRef .tc main_arg4) = x4) :
    after ops_v28 U (Proc.devRef .tc main_v28) = val_main_v28 (F := Ideal) x0 x1 x2 x3 x4 := by
  after_results_simp
  simp only [cast_eq, h_v22, h_arg2, h_arg3, h_arg0, h_arg4]
  simp only [val_main_v23, val_main_v24, val_main_v25, val_main_v26, val_main_v27, val_main_v28] <;> rfl

set_option maxHeartbeats 4000000 in
theorem win_v32 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (h_v28 : U (Proc.devRef .tc main_v28) = val_main_v28 (F := Ideal) x0 x1 x2 x3 x4) :
    after ops_v32 U (Proc.devRef .tc main_v32) = val_main_v32 (F := Ideal) x0 x1 x2 x3 x4 := by
  after_results_simp
  simp only [cast_eq, h_v28]
  simp only [val_main_cst_4, val_main_v29, val_main_v30, val_main_cst_5, val_main_v31, val_main_v32] <;> rfl

set_option maxHeartbeats 4000000 in
theorem win_v39 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (h_v32 : U (Proc.devRef .tc main_v32) = val_main_v32 (F := Ideal) x0 x1 x2 x3 x4) (h_v28 : U (Proc.devRef .tc main_v28) = val_main_v28 (F := Ideal) x0 x1 x2 x3 x4) :
    after ops_v39 U (Proc.devRef .tc main_v39) = val_main_v39 (F := Ideal) x0 x1 x2 x3 x4 := by
  after_results_simp
  simp only [cast_eq, h_v32, h_v28]
  simp only [val_main_v33, val_main_v34, val_main_v35, val_main_cst_6, val_main_v36, val_main_v37, val_main_cst_7, val_main_v38, val_main_v39] <;> rfl

set_option maxHeartbeats 4000000 in
theorem win_v46 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (h_v32 : U (Proc.devRef .tc main_v32) = val_main_v32 (F := Ideal) x0 x1 x2 x3 x4) (h_v28 : U (Proc.devRef .tc main_v28) = val_main_v28 (F := Ideal) x0 x1 x2 x3 x4) (h_v39 : U (Proc.devRef .tc main_v39) = val_main_v39 (F := Ideal) x0 x1 x2 x3 x4) :
    after ops_v46 U (Proc.devRef .tc main_v46) = val_main_v46 (F := Ideal) x0 x1 x2 x3 x4 := by
  after_results_simp
  simp only [cast_eq, h_v32, h_v28, h_v39]
  simp only [val_main_v40, val_main_v41, val_main_cst_8, val_main_v42, val_main_v43, val_main_v44, val_main_v45, val_main_v46] <;> rfl

set_option maxHeartbeats 4000000 in
theorem win_v54 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x11 : (⟨S64, .f32⟩ : BufTy).Contents (Elt Ideal)) (x12 : (⟨S64, .f32⟩ : BufTy).Contents (Elt Ideal))
    (h_arg11 : U (Proc.devRef .tc main_arg11) = x11) (h_v46 : U (Proc.devRef .tc main_v46) = val_main_v46 (F := Ideal) x0 x1 x2 x3 x4) (h_arg12 : U (Proc.devRef .tc main_arg12) = x12) (h_arg0 : U (Proc.devRef .tc main_arg0) = x0) :
    after ops_v54 U (Proc.devRef .tc main_v54) = val_main_v54 (F := Ideal) x0 x1 x2 x3 x4 x11 x12 := by
  after_results_simp
  simp only [cast_eq, h_arg11, h_v46, h_arg12, h_arg0]
  simp only [val_main_v47, val_main_v48, val_main_v49, val_main_v50, val_main_v51, val_main_v52, val_main_call0_cst, val_main_call0_v0, val_main_v53, val_main_v54] <;> rfl

set_option maxHeartbeats 4000000 in
theorem win_v73 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x11 : (⟨S64, .f32⟩ : BufTy).Contents (Elt Ideal)) (x12 : (⟨S64, .f32⟩ : BufTy).Contents (Elt Ideal))
    (h_v1 : U (Proc.devRef .tc main_v1) = val_main_v1 (F := Ideal) x1) (h_v54 : U (Proc.devRef .tc main_v54) = val_main_v54 (F := Ideal) x0 x1 x2 x3 x4 x11 x12) (h_v3 : U (Proc.devRef .tc main_v3) = val_main_v3 (F := Ideal) x1) :
    after ops_v73 U (Proc.devRef .tc main_v73) = val_main_v73 (F := Ideal) x0 x1 x2 x3 x4 x11 x12 := by
  after_results_simp
  simp only [cast_eq, h_v1, h_v54, h_v3]
  simp only [val_main_c_9, val_main_v55, val_main_v56, val_main_c_10, val_main_v57, val_main_v58, val_main_v59, val_main_v60, val_main_v61, val_main_cst_11, val_main_v62, val_main_v63, val_main_v64, val_main_cst_12, val_main_v65, val_main_cst_13, val_main_v66, val_main_v67, val_main_v68, val_main_cst_14, val_main_v69, val_main_v70, val_main_v71, val_main_v72, val_main_v73] <;> rfl

set_option maxHeartbeats 4000000 in
theorem win_v79 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x11 : (⟨S64, .f32⟩ : BufTy).Contents (Elt Ideal)) (x12 : (⟨S64, .f32⟩ : BufTy).Contents (Elt Ideal))
    (h_v73 : U (Proc.devRef .tc main_v73) = val_main_v73 (F := Ideal) x0 x1 x2 x3 x4 x11 x12) (h_arg5 : U (Proc.devRef .tc main_arg5) = x5) (h_arg6 : U (Proc.devRef .tc main_arg6) = x6) (h_v54 : U (Proc.devRef .tc main_v54) = val_main_v54 (F := Ideal) x0 x1 x2 x3 x4 x11 x12) (h_arg7 : U (Proc.devRef .tc main_arg7) = x7) :
    after ops_v79 U (Proc.devRef .tc main_v79) = val_main_v79 (F := Ideal) x0 x1 x2 x3 x4 x5 x6 x7 x11 x12 := by
  after_results_simp
  simp only [cast_eq, h_v73, h_arg5, h_arg6, h_v54, h_arg7]
  simp only [val_main_v74, val_main_v75, val_main_v76, val_main_v77, val_main_v78, val_main_v79] <;> rfl

set_option maxHeartbeats 4000000 in
theorem win_v83 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x11 : (⟨S64, .f32⟩ : BufTy).Contents (Elt Ideal)) (x12 : (⟨S64, .f32⟩ : BufTy).Contents (Elt Ideal))
    (h_v79 : U (Proc.devRef .tc main_v79) = val_main_v79 (F := Ideal) x0 x1 x2 x3 x4 x5 x6 x7 x11 x12) :
    after ops_v83 U (Proc.devRef .tc main_v83) = val_main_v83 (F := Ideal) x0 x1 x2 x3 x4 x5 x6 x7 x11 x12 := by
  after_results_simp
  simp only [cast_eq, h_v79]
  simp only [val_main_cst_15, val_main_v80, val_main_v81, val_main_cst_16, val_main_v82, val_main_v83] <;> rfl

set_option maxHeartbeats 4000000 in
theorem win_v90 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x11 : (⟨S64, .f32⟩ : BufTy).Contents (Elt Ideal)) (x12 : (⟨S64, .f32⟩ : BufTy).Contents (Elt Ideal))
    (h_v83 : U (Proc.devRef .tc main_v83) = val_main_v83 (F := Ideal) x0 x1 x2 x3 x4 x5 x6 x7 x11 x12) (h_v79 : U (Proc.devRef .tc main_v79) = val_main_v79 (F := Ideal) x0 x1 x2 x3 x4 x5 x6 x7 x11 x12) :
    after ops_v90 U (Proc.devRef .tc main_v90) = val_main_v90 (F := Ideal) x0 x1 x2 x3 x4 x5 x6 x7 x11 x12 := by
  after_results_simp
  simp only [cast_eq, h_v83, h_v79]
  simp only [val_main_v84, val_main_v85, val_main_v86, val_main_cst_17, val_main_v87, val_main_v88, val_main_cst_18, val_main_v89, val_main_v90] <;> rfl

set_option maxHeartbeats 4000000 in
theorem win_v97 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x11 : (⟨S64, .f32⟩ : BufTy).Contents (Elt Ideal)) (x12 : (⟨S64, .f32⟩ : BufTy).Contents (Elt Ideal))
    (h_v83 : U (Proc.devRef .tc main_v83) = val_main_v83 (F := Ideal) x0 x1 x2 x3 x4 x5 x6 x7 x11 x12) (h_v79 : U (Proc.devRef .tc main_v79) = val_main_v79 (F := Ideal) x0 x1 x2 x3 x4 x5 x6 x7 x11 x12) (h_v90 : U (Proc.devRef .tc main_v90) = val_main_v90 (F := Ideal) x0 x1 x2 x3 x4 x5 x6 x7 x11 x12) :
    after ops_v97 U (Proc.devRef .tc main_v97) = val_main_v97 (F := Ideal) x0 x1 x2 x3 x4 x5 x6 x7 x11 x12 := by
  after_results_simp
  simp only [cast_eq, h_v83, h_v79, h_v90]
  simp only [val_main_v91, val_main_v92, val_main_cst_19, val_main_v93, val_main_v94, val_main_v95, val_main_v96, val_main_v97] <;> rfl

set_option maxHeartbeats 4000000 in
theorem win_v105 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal))
    (h_arg13 : U (Proc.devRef .tc main_arg13) = x13) (h_v97 : U (Proc.devRef .tc main_v97) = val_main_v97 (F := Ideal) x0 x1 x2 x3 x4 x5 x6 x7 x11 x12) (h_arg14 : U (Proc.devRef .tc main_arg14) = x14) (h_v54 : U (Proc.devRef .tc main_v54) = val_main_v54 (F := Ideal) x0 x1 x2 x3 x4 x11 x12) :
    after ops_v105 U (Proc.devRef .tc main_v105) = val_main_v105 (F := Ideal) x0 x1 x2 x3 x4 x5 x6 x7 x11 x12 x13 x14 := by
  after_results_simp
  simp only [cast_eq, h_arg13, h_v97, h_arg14, h_v54]
  simp only [val_main_v98, val_main_v99, val_main_v100, val_main_v101, val_main_v102, val_main_v103, val_main_call1_cst, val_main_call1_v0, val_main_v104, val_main_v105] <;> rfl

set_option maxHeartbeats 4000000 in
theorem win_v124 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal))
    (h_v1 : U (Proc.devRef .tc main_v1) = val_main_v1 (F := Ideal) x1) (h_v105 : U (Proc.devRef .tc main_v105) = val_main_v105 (F := Ideal) x0 x1 x2 x3 x4 x5 x6 x7 x11 x12 x13 x14) (h_v3 : U (Proc.devRef .tc main_v3) = val_main_v3 (F := Ideal) x1) :
    after ops_v124 U (Proc.devRef .tc main_v124) = val_main_v124 (F := Ideal) x0 x1 x2 x3 x4 x5 x6 x7 x11 x12 x13 x14 := by
  after_results_simp
  simp only [cast_eq, h_v1, h_v105, h_v3]
  simp only [val_main_c_20, val_main_v106, val_main_v107, val_main_c_21, val_main_v108, val_main_v109, val_main_v110, val_main_v111, val_main_v112, val_main_cst_22, val_main_v113, val_main_v114, val_main_v115, val_main_cst_23, val_main_v116, val_main_cst_24, val_main_v117, val_main_v118, val_main_v119, val_main_cst_25, val_main_v120, val_main_v121, val_main_v122, val_main_v123, val_main_v124] <;> rfl

set_option maxHeartbeats 4000000 in
theorem win_v131 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal))
    (h_v124 : U (Proc.devRef .tc main_v124) = val_main_v124 (F := Ideal) x0 x1 x2 x3 x4 x5 x6 x7 x11 x12 x13 x14) (h_arg8 : U (Proc.devRef .tc main_arg8) = x8) (h_arg9 : U (Proc.devRef .tc main_arg9) = x9) (h_v105 : U (Proc.devRef .tc main_v105) = val_main_v105 (F := Ideal) x0 x1 x2 x3 x4 x5 x6 x7 x11 x12 x13 x14) (h_arg10 : U (Proc.devRef .tc main_arg10) = x10) :
    after ops_v131 U (Proc.devRef .tc main_v131) = val_main_v131 (F := Ideal) x0 x1 x2 x3 x4 x5 x6 x7 x8 x9 x10 x11 x12 x13 x14 := by
  after_results_simp
  simp only [cast_eq, h_v124, h_arg8, h_arg9, h_v105, h_arg10]
  simp only [val_main_v125, val_main_v126, val_main_v127, val_main_v128, val_main_v129, val_main_v130, val_main_v131] <;> rfl

set_option maxHeartbeats 4000000 in
theorem win_v139 (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal))
    (h_v131 : U (Proc.devRef .tc main_v131) = val_main_v131 (F := Ideal) x0 x1 x2 x3 x4 x5 x6 x7 x8 x9 x10 x11 x12 x13 x14) :
    after ops_v139 U (Proc.devRef .tc main_v139) = val_main_v139 (F := Ideal) x0 x1 x2 x3 x4 x5 x6 x7 x8 x9 x10 x11 x12 x13 x14 := by
  after_results_simp
  simp only [cast_eq, h_v131]
  simp only [val_main_v132, val_main_cst_26, val_main_v133, val_main_v134, val_main_v135, val_main_cst_27, val_main_v136, val_main_v137, val_main_v138, val_main_v139] <;> rfl

end Windows

/-! ## The whole line -/

section Whole

variable (m : (ℓ : Loc nD τ sig) → Buf (Elt Ideal) ℓ) (c : Dev nD)

/-- A buffer no operation writes holds its launch contents after the whole line. -/
theorem R_arg {b : Ref sig .tc} (hb : b ∉ Wall) :
    after (ops : List (HloOp τ sig (Elt Ideal))) (launchContents m c) (Proc.devRef .tc b) = m ((c.tc : Thread nD τ).loc b) :=
  after_keep writesAll hb _

theorem R_v22 : after (ops : List (HloOp τ sig (Elt Ideal))) (launchContents m c) (Proc.devRef .tc main_v22)
    = val_main_v22 (F := Ideal) (m ((c.tc : Thread nD τ).loc main_arg0)) (m ((c.tc : Thread nD τ).loc main_arg1)) :=
  (window_read writesAll 0 29 ops_v22 take_v22 (by decide) (launchContents m c)).trans
    (win_v22 (after ((ops : List (HloOp τ sig (Elt Ideal))).take 0) (launchContents m c)) _ _
      ((after_take writesAll (by decide) (launchContents m c)).trans (R_arg m c (b := main_arg1) (by decide)))
      ((after_take writesAll (by decide) (launchContents m c)).trans (R_arg m c (b := main_arg0) (by decide))))

theorem R_v1 : after (ops : List (HloOp τ sig (Elt Ideal))) (launchContents m c) (Proc.devRef .tc main_v1)
    = val_main_v1 (F := Ideal) (m ((c.tc : Thread nD τ).loc main_arg1)) :=
  (window_read writesAll 0 29 ops_v22 take_v22 (by decide) (launchContents m c)).trans
    (win_v1 (after ((ops : List (HloOp τ sig (Elt Ideal))).take 0) (launchContents m c)) _ _
      ((after_take writesAll (by decide) (launchContents m c)).trans (R_arg m c (b := main_arg1) (by decide)))
      ((after_take writesAll (by decide) (launchContents m c)).trans (R_arg m c (b := main_arg0) (by decide))))

theorem R_v3 : after (ops : List (HloOp τ sig (Elt Ideal))) (launchContents m c) (Proc.devRef .tc main_v3)
    = val_main_v3 (F := Ideal) (m ((c.tc : Thread nD τ).loc main_arg1)) :=
  (window_read writesAll 0 29 ops_v22 take_v22 (by decide) (launchContents m c)).trans
    (win_v3 (after ((ops : List (HloOp τ sig (Elt Ideal))).take 0) (launchContents m c)) _ _
      ((after_take writesAll (by decide) (launchContents m c)).trans (R_arg m c (b := main_arg1) (by decide)))
      ((after_take writesAll (by decide) (launchContents m c)).trans (R_arg m c (b := main_arg0) (by decide))))

theorem R_v28 : after (ops : List (HloOp τ sig (Elt Ideal))) (launchContents m c) (Proc.devRef .tc main_v28)
    = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (window_read writesAll 29 35 ops_v28 take_v28 (by decide) (launchContents m c)).trans
    (win_v28 (after ((ops : List (HloOp τ sig (Elt Ideal))).take 29) (launchContents m c)) _ _ _ _ _
      ((after_take writesAll (by decide) (launchContents m c)).trans (R_v22 m c))
      ((after_take writesAll (by decide) (launchContents m c)).trans (R_arg m c (b := main_arg2) (by decide)))
      ((after_take writesAll (by decide) (launchContents m c)).trans (R_arg m c (b := main_arg3) (by decide)))
      ((after_take writesAll (by decide) (launchContents m c)).trans (R_arg m c (b := main_arg0) (by decide)))
      ((after_take writesAll (by decide) (launchContents m c)).trans (R_arg m c (b := main_arg4) (by decide))))

theorem R_v32 : after (ops : List (HloOp τ sig (Elt Ideal))) (launchContents m c) (Proc.devRef .tc main_v32)
    = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (window_read writesAll 35 41 ops_v32 take_v32 (by decide) (launchContents m c)).trans
    (win_v32 (after ((ops : List (HloOp τ sig (Elt Ideal))).take 35) (launchContents m c)) _ _ _ _ _
      ((after_take writesAll (by decide) (launchContents m c)).trans (R_v28 m c)))

theorem R_v39 : after (ops : List (HloOp τ sig (Elt Ideal))) (launchContents m c) (Proc.devRef .tc main_v39)
    = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (window_read writesAll 41 50 ops_v39 take_v39 (by decide) (launchContents m c)).trans
    (win_v39 (after ((ops : List (HloOp τ sig (Elt Ideal))).take 41) (launchContents m c)) _ _ _ _ _
      ((after_take writesAll (by decide) (launchContents m c)).trans (R_v32 m c))
      ((after_take writesAll (by decide) (launchContents m c)).trans (R_v28 m c)))

theorem R_v46 : after (ops : List (HloOp τ sig (Elt Ideal))) (launchContents m c) (Proc.devRef .tc main_v46)
    = val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (window_read writesAll 50 58 ops_v46 take_v46 (by decide) (launchContents m c)).trans
    (win_v46 (after ((ops : List (HloOp τ sig (Elt Ideal))).take 50) (launchContents m c)) _ _ _ _ _
      ((after_take writesAll (by decide) (launchContents m c)).trans (R_v32 m c))
      ((after_take writesAll (by decide) (launchContents m c)).trans (R_v28 m c))
      ((after_take writesAll (by decide) (launchContents m c)).trans (R_v39 m c)))

theorem R_v54 : after (ops : List (HloOp τ sig (Elt Ideal))) (launchContents m c) (Proc.devRef .tc main_v54)
    = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) :=
  (window_read writesAll 58 68 ops_v54 take_v54 (by decide) (launchContents m c)).trans
    (win_v54 (after ((ops : List (HloOp τ sig (Elt Ideal))).take 58) (launchContents m c)) _ _ _ _ _ _ _
      ((after_take writesAll (by decide) (launchContents m c)).trans (R_arg m c (b := main_arg11) (by decide)))
      ((after_take writesAll (by decide) (launchContents m c)).trans (R_v46 m c))
      ((after_take writesAll (by decide) (launchContents m c)).trans (R_arg m c (b := main_arg12) (by decide)))
      ((after_take writesAll (by decide) (launchContents m c)).trans (R_arg m c (b := main_arg0) (by decide))))

theorem R_v73 : after (ops : List (HloOp τ sig (Elt Ideal))) (launchContents m c) (Proc.devRef .tc main_v73)
    = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12)) :=
  (window_read writesAll 68 93 ops_v73 take_v73 (by decide) (launchContents m c)).trans
    (win_v73 (after ((ops : List (HloOp τ sig (Elt Ideal))).take 68) (launchContents m c)) _ _ _ _ _ _ _
      ((after_take writesAll (by decide) (launchContents m c)).trans (R_v1 m c))
      ((after_take writesAll (by decide) (launchContents m c)).trans (R_v54 m c))
      ((after_take writesAll (by decide) (launchContents m c)).trans (R_v3 m c)))

theorem R_v79 : after (ops : List (HloOp τ sig (Elt Ideal))) (launchContents m c) (Proc.devRef .tc main_v79)
    = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) :=
  (window_read writesAll 93 99 ops_v79 take_v79 (by decide) (launchContents m c)).trans
    (win_v79 (after ((ops : List (HloOp τ sig (Elt Ideal))).take 93) (launchContents m c)) _ _ _ _ _ _ _ _ _ _
      ((after_take writesAll (by decide) (launchContents m c)).trans (R_v73 m c))
      ((after_take writesAll (by decide) (launchContents m c)).trans (R_arg m c (b := main_arg5) (by decide)))
      ((after_take writesAll (by decide) (launchContents m c)).trans (R_arg m c (b := main_arg6) (by decide)))
      ((after_take writesAll (by decide) (launchContents m c)).trans (R_v54 m c))
      ((after_take writesAll (by decide) (launchContents m c)).trans (R_arg m c (b := main_arg7) (by decide))))

theorem R_v83 : after (ops : List (HloOp τ sig (Elt Ideal))) (launchContents m c) (Proc.devRef .tc main_v83)
    = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) :=
  (window_read writesAll 99 105 ops_v83 take_v83 (by decide) (launchContents m c)).trans
    (win_v83 (after ((ops : List (HloOp τ sig (Elt Ideal))).take 99) (launchContents m c)) _ _ _ _ _ _ _ _ _ _
      ((after_take writesAll (by decide) (launchContents m c)).trans (R_v79 m c)))

theorem R_v90 : after (ops : List (HloOp τ sig (Elt Ideal))) (launchContents m c) (Proc.devRef .tc main_v90)
    = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) :=
  (window_read writesAll 105 114 ops_v90 take_v90 (by decide) (launchContents m c)).trans
    (win_v90 (after ((ops : List (HloOp τ sig (Elt Ideal))).take 105) (launchContents m c)) _ _ _ _ _ _ _ _ _ _
      ((after_take writesAll (by decide) (launchContents m c)).trans (R_v83 m c))
      ((after_take writesAll (by decide) (launchContents m c)).trans (R_v79 m c)))

theorem R_v97 : after (ops : List (HloOp τ sig (Elt Ideal))) (launchContents m c) (Proc.devRef .tc main_v97)
    = val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) :=
  (window_read writesAll 114 122 ops_v97 take_v97 (by decide) (launchContents m c)).trans
    (win_v97 (after ((ops : List (HloOp τ sig (Elt Ideal))).take 114) (launchContents m c)) _ _ _ _ _ _ _ _ _ _
      ((after_take writesAll (by decide) (launchContents m c)).trans (R_v83 m c))
      ((after_take writesAll (by decide) (launchContents m c)).trans (R_v79 m c))
      ((after_take writesAll (by decide) (launchContents m c)).trans (R_v90 m c)))

theorem R_v105 : after (ops : List (HloOp τ sig (Elt Ideal))) (launchContents m c) (Proc.devRef .tc main_v105)
    = val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14)) :=
  (window_read writesAll 122 132 ops_v105 take_v105 (by decide) (launchContents m c)).trans
    (win_v105 (after ((ops : List (HloOp τ sig (Elt Ideal))).take 122) (launchContents m c)) _ _ _ _ _ _ _ _ _ _ _ _
      ((after_take writesAll (by decide) (launchContents m c)).trans (R_arg m c (b := main_arg13) (by decide)))
      ((after_take writesAll (by decide) (launchContents m c)).trans (R_v97 m c))
      ((after_take writesAll (by decide) (launchContents m c)).trans (R_arg m c (b := main_arg14) (by decide)))
      ((after_take writesAll (by decide) (launchContents m c)).trans (R_v54 m c)))

theorem R_v124 : after (ops : List (HloOp τ sig (Elt Ideal))) (launchContents m c) (Proc.devRef .tc main_v124)
    = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14)) :=
  (window_read writesAll 132 157 ops_v124 take_v124 (by decide) (launchContents m c)).trans
    (win_v124 (after ((ops : List (HloOp τ sig (Elt Ideal))).take 132) (launchContents m c)) _ _ _ _ _ _ _ _ _ _ _ _
      ((after_take writesAll (by decide) (launchContents m c)).trans (R_v1 m c))
      ((after_take writesAll (by decide) (launchContents m c)).trans (R_v105 m c))
      ((after_take writesAll (by decide) (launchContents m c)).trans (R_v3 m c)))

theorem R_v131 : after (ops : List (HloOp τ sig (Elt Ideal))) (launchContents m c) (Proc.devRef .tc main_v131)
    = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (window_read writesAll 157 164 ops_v131 take_v131 (by decide) (launchContents m c)).trans
    (win_v131 (after ((ops : List (HloOp τ sig (Elt Ideal))).take 157) (launchContents m c)) _ _ _ _ _ _ _ _ _ _ _ _ _ _ _
      ((after_take writesAll (by decide) (launchContents m c)).trans (R_v124 m c))
      ((after_take writesAll (by decide) (launchContents m c)).trans (R_arg m c (b := main_arg8) (by decide)))
      ((after_take writesAll (by decide) (launchContents m c)).trans (R_arg m c (b := main_arg9) (by decide)))
      ((after_take writesAll (by decide) (launchContents m c)).trans (R_v105 m c))
      ((after_take writesAll (by decide) (launchContents m c)).trans (R_arg m c (b := main_arg10) (by decide))))

theorem R_v139 : after (ops : List (HloOp τ sig (Elt Ideal))) (launchContents m c) (Proc.devRef .tc main_v139)
    = val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (window_read writesAll 164 174 ops_v139 take_v139 (by decide) (launchContents m c)).trans
    (win_v139 (after ((ops : List (HloOp τ sig (Elt Ideal))).take 164) (launchContents m c)) _ _ _ _ _ _ _ _ _ _ _ _ _ _ _
      ((after_take writesAll (by decide) (launchContents m c)).trans (R_v131 m c)))

end Whole

/-! ## The run -/

section Run

variable (m : (ℓ : Loc nD τ sig) → Buf (Elt Ideal) ℓ) (ρ : Dev nD → PrngReg)

/-- On every device, from any memory with zero counters: every weakly fair execution of @main terminates with the
    result buffer at the last stage function of the arguments and the arguments unchanged. -/
theorem run : θ_run defs (onTc (τ := τ) (main (F := Ideal))) ⟨m, fun _ => 0, ρ⟩ fun r => ∀ c : Dev nD,
      r.2.mem ((c.tc : Thread nD τ).loc main_v139) = val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v139).trans (R_v139 m c),
      (h c main_arg0).trans (R_arg m c (by decide)),
      (h c main_arg1).trans (R_arg m c (by decide)),
      (h c main_arg2).trans (R_arg m c (by decide)),
      (h c main_arg3).trans (R_arg m c (by decide)),
      (h c main_arg4).trans (R_arg m c (by decide)),
      (h c main_arg5).trans (R_arg m c (by decide)),
      (h c main_arg6).trans (R_arg m c (by decide)),
      (h c main_arg7).trans (R_arg m c (by decide)),
      (h c main_arg8).trans (R_arg m c (by decide)),
      (h c main_arg9).trans (R_arg m c (by decide)),
      (h c main_arg10).trans (R_arg m c (by decide)),
      (h c main_arg11).trans (R_arg m c (by decide)),
      (h c main_arg12).trans (R_arg m c (by decide)),
      (h c main_arg13).trans (R_arg m c (by decide)),
      (h c main_arg14).trans (R_arg m c (by decide))⟩)
    (run_seq scopedRefs_eq scopedSems_eq defs main (fun _ => ops) main_eq (fun _ => ops_sub) m ρ)

end Run

end Cert.ReferenceIdeal.RefValue

end
-- ==== Proof.RefLayers.lean ====
/-
  The reference, layer by layer.

  Each of its three layers gathers the rows of its input along the edges, sums them per target node and divides by the
  node's in-degree (at least one) — the neighbourhood means, one shared function of the input and of the index array
  — and then, read entry by entry: the two matrix products and the bias, the row means and variances kept as unit
  axes, the normalised rows, the maximum with zero and the input added back (the two middle layers); or the input added
  back and each row divided by its length (the last layer).
-/
import proofs.«170888_j42030549959220_1_alg».proof.Proof.RefRead
import proofs.«170888_j42030549959220_1_alg».proof.Proof.SageSpec

noncomputable section

namespace Cert.ReferenceIdeal.Layers

open Cert.ReferenceIdeal Cert.ReferenceIdeal.Gen Cert.ReferenceIdeal.RefRead Idealize.ShloMosaic Idealize.ShloMosaic.TcCoe Idealize.SL.Sem
open Idealize.ShloMosaic.ValueIdx Cert.Sage

/-- An [n, 64] array of floats, a 64×64 matrix, a length-64 vector, the index array. -/
abbrev MatN : Type := (⟨S100000x64, .f32⟩ : BufTy).Contents (Elt Ideal)
abbrev MatW : Type := (⟨S64x64, .f32⟩ : BufTy).Contents (Elt Ideal)
abbrev VecB : Type := (⟨S64, .f32⟩ : BufTy).Contents (Elt Ideal)
abbrev Edges : Type := (⟨S2x1250000, .i32⟩ : BufTy).Contents (Elt Ideal)

/-- A length-64 vector as a function of the position. -/
abbrev vec (b : VecB) : Fin 64 → EReal := fun j => b (ix1 j)

/-- The neighbourhood means of an array of node features along the edges of the index array. -/
abbrev aggr (h : MatN) (ei : Edges) : MatN := val_main_v22 (F := Ideal) h ei

/-! ## Layer 1 -/

section Layer1
variable (x0 : MatN) (x1 : Edges) (x2 : MatW) (x3 : VecB) (x4 : MatW) (x11 x12 : VecB)

/-- The pre-activation of layer 1: the host's two products and its bias, at an entry. -/
theorem conv1 (p : Fin 100000) (q : Fin 64) :
    val_main_v28 (F := Ideal) x0 x1 x2 x3 x4 (ix2 p q) = pre (n := 100000) (x0) (val_main_v22 (F := Ideal) x0 x1) x2 x4 (vec x3) p q := by
  rw [val_main_v28_apply, val_main_v26_apply, val_main_v23_apply, val_main_v27_apply, val_main_v25_apply, val_main_v24_apply]
  have e1 : ∀ k : Fin 64, lidx_main_v23 (ix2 p q) k = ix2 p k := fun k => funext fun a => Fin.ext (by match a with | ⟨0, _⟩ => rfl | ⟨1, _⟩ => rfl)
  have e2 : ∀ k : Fin 64, ridx_main_v23 (ix2 p q) k = ix2 k q := fun k => funext fun a => Fin.ext (by match a with | ⟨0, _⟩ => rfl | ⟨1, _⟩ => rfl)
  have e3 : ∀ k : Fin 64, lidx_main_v27 (ix2 p q) k = ix2 p k := fun k => funext fun a => Fin.ext (by match a with | ⟨0, _⟩ => rfl | ⟨1, _⟩ => rfl)
  have e4 : ∀ k : Fin 64, ridx_main_v27 (ix2 p q) k = ix2 k q := fun k => funext fun a => Fin.ext (by match a with | ⟨0, _⟩ => rfl | ⟨1, _⟩ => rfl)
  have e5 : idx_main_v24 (idx_main_v25 (ix2 p q)) = ix1 q := funext fun a => Fin.ext (by match a with | ⟨0, _⟩ => rfl)
  simp only [e1, e2, e3, e4, e5]
  generalize val_main_v22 (F := Ideal) x0 x1 = A
  generalize x0 = H
  rfl

/-- The row means of layer 1's pre-activation, kept as a unit axis. -/
theorem mean1 (p : Fin 100000) (u : Fin 1) :
    val_main_v32 (F := Ideal) x0 x1 x2 x3 x4 (ix2 p u) = rowMean (pre (n := 100000) (x0) (val_main_v22 (F := Ideal) x0 x1) x2 x4 (vec x3) p) := by
  rw [val_main_v32_apply, val_main_v30_apply, val_main_v29_apply, val_main_v31_apply, val_main_cst_5_apply, val_main_cst_4_apply]
  have e : ∀ k : Fin 64, idx_main_v29 (idx_main_v30 (ix2 p u)) k = ix2 p k := fun k => funext fun a => Fin.ext (by match a with | ⟨0, _⟩ => rfl | ⟨1, _⟩ => rfl)
  simp only [e, conv1]
  unfold rowMean
  simp only [Ideal.hostDivf_def, Ideal.ofBits_def, Ideal.ofBits_zero_f32, zero_add]

/-- An entry's deviation from its row's mean. -/
theorem dev1 (p : Fin 100000) (k : Fin 64) :
    val_main_v34 (F := Ideal) x0 x1 x2 x3 x4 (ix2 p k) = pre (n := 100000) (x0) (val_main_v22 (F := Ideal) x0 x1) x2 x4 (vec x3) p k - rowMean (pre (n := 100000) (x0) (val_main_v22 (F := Ideal) x0 x1) x2 x4 (vec x3) p) := by
  rw [val_main_v34_apply, val_main_v33_apply, conv1]
  have e : idx_main_v33 (ix2 p k) = ix2 p (0 : Fin 1) := funext fun a => Fin.ext (by match a with | ⟨0, _⟩ => rfl | ⟨1, _⟩ => rfl)
  rw [e, mean1]
  simp only [Ideal.subf_def]

/-- The row variances of layer 1's pre-activation, kept as a unit axis. -/
theorem var1 (p : Fin 100000) (u : Fin 1) :
    val_main_v39 (F := Ideal) x0 x1 x2 x3 x4 (ix2 p u) = rowVar (pre (n := 100000) (x0) (val_main_v22 (F := Ideal) x0 x1) x2 x4 (vec x3) p) := by
  rw [val_main_v39_apply, val_main_v37_apply, val_main_v36_apply, val_main_v38_apply, val_main_cst_7_apply, val_main_cst_6_apply]
  have hs : ∀ k : Fin 64, (val_main_v35 (F := Ideal) x0 x1 x2 x3 x4) (idx_main_v36 (idx_main_v37 (ix2 p u)) k)
      = (pre (n := 100000) (x0) (val_main_v22 (F := Ideal) x0 x1) x2 x4 (vec x3) p k - rowMean (pre (n := 100000) (x0) (val_main_v22 (F := Ideal) x0 x1) x2 x4 (vec x3) p)) * (pre (n := 100000) (x0) (val_main_v22 (F := Ideal) x0 x1) x2 x4 (vec x3) p k - rowMean (pre (n := 100000) (x0) (val_main_v22 (F := Ideal) x0 x1) x2 x4 (vec x3) p)) := by
    intro k
    have e : idx_main_v36 (idx_main_v37 (ix2 p u)) k = ix2 p k := funext fun a => Fin.ext (by match a with | ⟨0, _⟩ => rfl | ⟨1, _⟩ => rfl)
    rw [e, val_main_v35_apply, dev1]
    simp only [Ideal.mulf_def]
  rw [Finset.sum_congr rfl (fun k _ => hs k)]
  unfold rowVar
  simp only [Ideal.hostDivf_def, Ideal.ofBits_def, Ideal.ofBits_zero_f32, zero_add]

/-- Layer 1 of the reference, as one array: the middle layer of its input and of the input's neighbourhood means. -/
theorem layer1 : val_main_v54 (F := Ideal) x0 x1 x2 x3 x4 x11 x12
    = midLayer (n := 100000) (x0) (val_main_v22 (F := Ideal) x0 x1) x2 x4 (vec x3) (vec x11) (vec x12) := by
  funext i
  obtain ⟨p, q, rfl⟩ : ∃ (p : Fin 100000) (q : Fin 64), i = ix2 p q := ⟨i 0, i 1, eq_ix2 i⟩
  rw [val_main_v54_apply, val_main_v53_apply, val_main_v52_apply, val_main_v49_apply, val_main_v46_apply, val_main_v41_apply, val_main_v40_apply, val_main_v45_apply,
    val_main_v44_apply, val_main_v43_apply, val_main_v42_apply, val_main_cst_8_apply, val_main_v48_apply, val_main_v47_apply, val_main_v51_apply, val_main_v50_apply,
    val_main_call0_v0_apply, val_main_call0_cst_apply]
  have e1 : idx_main_v40 (ix2 p q) = ix2 p (0 : Fin 1) := funext fun a => Fin.ext (by match a with | ⟨0, _⟩ => rfl | ⟨1, _⟩ => rfl)
  have e2 : idx_main_v45 (ix2 p q) = ix2 p (0 : Fin 1) := funext fun a => Fin.ext (by match a with | ⟨0, _⟩ => rfl | ⟨1, _⟩ => rfl)
  have e3 : idx_main_v47 (idx_main_v48 (ix2 p q)) = ix1 q := funext fun a => Fin.ext (by match a with | ⟨0, _⟩ => rfl)
  have e4 : idx_main_v50 (idx_main_v51 (ix2 p q)) = ix1 q := funext fun a => Fin.ext (by match a with | ⟨0, _⟩ => rfl)
  rw [e1, e2, e3, e4, conv1, mean1, var1]
  generalize val_main_v22 (F := Ideal) x0 x1 = A
  generalize x0 = H
  rfl

end Layer1

/-! ## Layer 2 -/

section Layer2
variable (x0 : MatN) (x1 : Edges) (x2 : MatW) (x3 : VecB) (x4 x5 : MatW) (x6 : VecB) (x7 : MatW) (x11 x12 x13 x14 : VecB)

/-- The pre-activation of layer 2: the host's two products and its bias, at an entry. -/
theorem conv2 (p : Fin 100000) (q : Fin 64) :
    val_main_v79 (F := Ideal) x0 x1 x2 x3 x4 x5 x6 x7 x11 x12 (ix2 p q) = pre (n := 100000) (val_main_v54 (F := Ideal) x0 x1 x2 x3 x4 x11 x12) (val_main_v73 (F := Ideal) x0 x1 x2 x3 x4 x11 x12) x5 x7 (vec x6) p q := by
  rw [val_main_v79_apply, val_main_v77_apply, val_main_v74_apply, val_main_v78_apply, val_main_v76_apply, val_main_v75_apply]
  have e1 : ∀ k : Fin 64, lidx_main_v74 (ix2 p q) k = ix2 p k := fun k => funext fun a => Fin.ext (by match a with | ⟨0, _⟩ => rfl | ⟨1, _⟩ => rfl)
  have e2 : ∀ k : Fin 64, ridx_main_v74 (ix2 p q) k = ix2 k q := fun k => funext fun a => Fin.ext (by match a with | ⟨0, _⟩ => rfl | ⟨1, _⟩ => rfl)
  have e3 : ∀ k : Fin 64, lidx_main_v78 (ix2 p q) k = ix2 p k := fun k => funext fun a => Fin.ext (by match a with | ⟨0, _⟩ => rfl | ⟨1, _⟩ => rfl)
  have e4 : ∀ k : Fin 64, ridx_main_v78 (ix2 p q) k = ix2 k q := fun k => funext fun a => Fin.ext (by match a with | ⟨0, _⟩ => rfl | ⟨1, _⟩ => rfl)
  have e5 : idx_main_v75 (idx_main_v76 (ix2 p q)) = ix1 q := funext fun a => Fin.ext (by match a with | ⟨0, _⟩ => rfl)
  simp only [e1, e2, e3, e4, e5]
  generalize val_main_v73 (F := Ideal) x0 x1 x2 x3 x4 x11 x12 = A
  generalize val_main_v54 (F := Ideal) x0 x1 x2 x3 x4 x11 x12 = H
  rfl

/-- The row means of layer 2's pre-activation, kept as a unit axis. -/
theorem mean2 (p : Fin 100000) (u : Fin 1) :
    val_main_v83 (F := Ideal) x0 x1 x2 x3 x4 x5 x6 x7 x11 x12 (ix2 p u) = rowMean (pre (n := 100000) (val_main_v54 (F := Ideal) x0 x1 x2 x3 x4 x11 x12) (val_main_v73 (F := Ideal) x0 x1 x2 x3 x4 x11 x12) x5 x7 (vec x6) p) := by
  rw [val_main_v83_apply, val_main_v81_apply, val_main_v80_apply, val_main_v82_apply, val_main_cst_16_apply, val_main_cst_15_apply]
  have e : ∀ k : Fin 64, idx_main_v80 (idx_main_v81 (ix2 p u)) k = ix2 p k := fun k => funext fun a => Fin.ext (by match a with | ⟨0, _⟩ => rfl | ⟨1, _⟩ => rfl)
  simp only [e, conv2]
  unfold rowMean
  simp only [Ideal.hostDivf_def, Ideal.ofBits_def, Ideal.ofBits_zero_f32, zero_add]

/-- An entry's deviation from its row's mean. -/
theorem dev2 (p : Fin 100000) (k : Fin 64) :
    val_main_v85 (F := Ideal) x0 x1 x2 x3 x4 x5 x6 x7 x11 x12 (ix2 p k) = pre (n := 100000) (val_main_v54 (F := Ideal) x0 x1 x2 x3 x4 x11 x12) (val_main_v73 (F := Ideal) x0 x1 x2 x3 x4 x11 x12) x5 x7 (vec x6) p k - rowMean (pre (n := 100000) (val_main_v54 (F := Ideal) x0 x1 x2 x3 x4 x11 x12) (val_main_v73 (F := Ideal) x0 x1 x2 x3 x4 x11 x12) x5 x7 (vec x6) p) := by
  rw [val_main_v85_apply, val_main_v84_apply, conv2]
  have e : idx_main_v84 (ix2 p k) = ix2 p (0 : Fin 1) := funext fun a => Fin.ext (by match a with | ⟨0, _⟩ => rfl | ⟨1, _⟩ => rfl)
  rw [e, mean2]
  simp only [Ideal.subf_def]

/-- The row variances of layer 2's pre-activation, kept as a unit axis. -/
theorem var2 (p : Fin 100000) (u : Fin 1) :
    val_main_v90 (F := Ideal) x0 x1 x2 x3 x4 x5 x6 x7 x11 x12 (ix2 p u) = rowVar (pre (n := 100000) (val_main_v54 (F := Ideal) x0 x1 x2 x3 x4 x11 x12) (val_main_v73 (F := Ideal) x0 x1 x2 x3 x4 x11 x12) x5 x7 (vec x6) p) := by
  rw [val_main_v90_apply, val_main_v88_apply, val_main_v87_apply, val_main_v89_apply, val_main_cst_18_apply, val_main_cst_17_apply]
  have hs : ∀ k : Fin 64, (val_main_v86 (F := Ideal) x0 x1 x2 x3 x4 x5 x6 x7 x11 x12) (idx_main_v87 (idx_main_v88 (ix2 p u)) k)
      = (pre (n := 100000) (val_main_v54 (F := Ideal) x0 x1 x2 x3 x4 x11 x12) (val_main_v73 (F := Ideal) x0 x1 x2 x3 x4 x11 x12) x5 x7 (vec x6) p k - rowMean (pre (n := 100000) (val_main_v54 (F := Ideal) x0 x1 x2 x3 x4 x11 x12) (val_main_v73 (F := Ideal) x0 x1 x2 x3 x4 x11 x12) x5 x7 (vec x6) p)) * (pre (n := 100000) (val_main_v54 (F := Ideal) x0 x1 x2 x3 x4 x11 x12) (val_main_v73 (F := Ideal) x0 x1 x2 x3 x4 x11 x12) x5 x7 (vec x6) p k - rowMean (pre (n := 100000) (val_main_v54 (F := Ideal) x0 x1 x2 x3 x4 x11 x12) (val_main_v73 (F := Ideal) x0 x1 x2 x3 x4 x11 x12) x5 x7 (vec x6) p)) := by
    intro k
    have e : idx_main_v87 (idx_main_v88 (ix2 p u)) k = ix2 p k := funext fun a => Fin.ext (by match a with | ⟨0, _⟩ => rfl | ⟨1, _⟩ => rfl)
    rw [e, val_main_v86_apply, dev2]
    simp only [Ideal.mulf_def]
  rw [Finset.sum_congr rfl (fun k _ => hs k)]
  unfold rowVar
  simp only [Ideal.hostDivf_def, Ideal.ofBits_def, Ideal.ofBits_zero_f32, zero_add]

/-- Layer 2 of the reference, as one array: the middle layer of its input and of the input's neighbourhood means. -/
theorem layer2 : val_main_v105 (F := Ideal) x0 x1 x2 x3 x4 x5 x6 x7 x11 x12 x13 x14
    = midLayer (n := 100000) (val_main_v54 (F := Ideal) x0 x1 x2 x3 x4 x11 x12) (val_main_v73 (F := Ideal) x0 x1 x2 x3 x4 x11 x12) x5 x7 (vec x6) (vec x13) (vec x14) := by
  funext i
  obtain ⟨p, q, rfl⟩ : ∃ (p : Fin 100000) (q : Fin 64), i = ix2 p q := ⟨i 0, i 1, eq_ix2 i⟩
  rw [val_main_v105_apply, val_main_v104_apply, val_main_v103_apply, val_main_v100_apply, val_main_v97_apply, val_main_v92_apply, val_main_v91_apply, val_main_v96_apply,
    val_main_v95_apply, val_main_v94_apply, val_main_v93_apply, val_main_cst_19_apply, val_main_v99_apply, val_main_v98_apply, val_main_v102_apply, val_main_v101_apply,
    val_main_call1_v0_apply, val_main_call1_cst_apply]
  have e1 : idx_main_v91 (ix2 p q) = ix2 p (0 : Fin 1) := funext fun a => Fin.ext (by match a with | ⟨0, _⟩ => rfl | ⟨1, _⟩ => rfl)
  have e2 : idx_main_v96 (ix2 p q) = ix2 p (0 : Fin 1) := funext fun a => Fin.ext (by match a with | ⟨0, _⟩ => rfl | ⟨1, _⟩ => rfl)
  have e3 : idx_main_v98 (idx_main_v99 (ix2 p q)) = ix1 q := funext fun a => Fin.ext (by match a with | ⟨0, _⟩ => rfl)
  have e4 : idx_main_v101 (idx_main_v102 (ix2 p q)) = ix1 q := funext fun a => Fin.ext (by match a with | ⟨0, _⟩ => rfl)
  rw [e1, e2, e3, e4, conv2, mean2, var2]
  generalize val_main_v73 (F := Ideal) x0 x1 x2 x3 x4 x11 x12 = A
  generalize val_main_v54 (F := Ideal) x0 x1 x2 x3 x4 x11 x12 = H
  rfl

end Layer2

/-! ## Layer 3 -/

section Layer3
variable (x0 : MatN) (x1 : Edges) (x2 : MatW) (x3 : VecB) (x4 x5 : MatW) (x6 : VecB) (x7 x8 : MatW) (x9 : VecB) (x10 : MatW) (x11 x12 x13 x14 : VecB)

/-- The pre-activation of the last layer: the host's two products and its bias, at an entry. -/
theorem conv3 (p : Fin 100000) (q : Fin 64) :
    val_main_v130 (F := Ideal) x0 x1 x2 x3 x4 x5 x6 x7 x8 x9 x10 x11 x12 x13 x14 (ix2 p q) = pre (n := 100000) (val_main_v105 (F := Ideal) x0 x1 x2 x3 x4 x5 x6 x7 x11 x12 x13 x14) (val_main_v124 (F := Ideal) x0 x1 x2 x3 x4 x5 x6 x7 x11 x12 x13 x14) x8 x10 (vec x9) p q := by
  rw [val_main_v130_apply, val_main_v128_apply, val_main_v125_apply, val_main_v129_apply, val_main_v127_apply, val_main_v126_apply]
  have e1 : ∀ k : Fin 64, lidx_main_v125 (ix2 p q) k = ix2 p k := fun k => funext fun a => Fin.ext (by match a with | ⟨0, _⟩ => rfl | ⟨1, _⟩ => rfl)
  have e2 : ∀ k : Fin 64, ridx_main_v125 (ix2 p q) k = ix2 k q := fun k => funext fun a => Fin.ext (by match a with | ⟨0, _⟩ => rfl | ⟨1, _⟩ => rfl)
  have e3 : ∀ k : Fin 64, lidx_main_v129 (ix2 p q) k = ix2 p k := fun k => funext fun a => Fin.ext (by match a with | ⟨0, _⟩ => rfl | ⟨1, _⟩ => rfl)
  have e4 : ∀ k : Fin 64, ridx_main_v129 (ix2 p q) k = ix2 k q := fun k => funext fun a => Fin.ext (by match a with | ⟨0, _⟩ => rfl | ⟨1, _⟩ => rfl)
  have e5 : idx_main_v126 (idx_main_v127 (ix2 p q)) = ix1 q := funext fun a => Fin.ext (by match a with | ⟨0, _⟩ => rfl)
  simp only [e1, e2, e3, e4, e5]
  generalize val_main_v124 (F := Ideal) x0 x1 x2 x3 x4 x5 x6 x7 x11 x12 x13 x14 = A
  generalize val_main_v105 (F := Ideal) x0 x1 x2 x3 x4 x5 x6 x7 x11 x12 x13 x14 = H
  rfl

/-- The pre-activation plus the layer's input, at an entry. -/
theorem resid3 (p : Fin 100000) (k : Fin 64) :
    val_main_v131 (F := Ideal) x0 x1 x2 x3 x4 x5 x6 x7 x8 x9 x10 x11 x12 x13 x14 (ix2 p k) = resid (n := 100000) (val_main_v105 (F := Ideal) x0 x1 x2 x3 x4 x5 x6 x7 x11 x12 x13 x14) (val_main_v124 (F := Ideal) x0 x1 x2 x3 x4 x5 x6 x7 x11 x12 x13 x14) x8 x10 (vec x9) p k := by
  rw [val_main_v131_apply, conv3]
  unfold resid
  simp only [Ideal.addf_def]

/-- The rows' lengths, bounded below, kept as a unit axis. -/
theorem len3 (p : Fin 100000) (u : Fin 1) :
    val_main_v137 (F := Ideal) x0 x1 x2 x3 x4 x5 x6 x7 x8 x9 x10 x11 x12 x13 x14 (ix2 p u) = rowLen (n := 100000) (val_main_v105 (F := Ideal) x0 x1 x2 x3 x4 x5 x6 x7 x11 x12 x13 x14) (val_main_v124 (F := Ideal) x0 x1 x2 x3 x4 x5 x6 x7 x11 x12 x13 x14) x8 x10 (vec x9) p := by
  rw [val_main_v137_apply, val_main_v135_apply, val_main_v134_apply, val_main_v133_apply, val_main_v136_apply, val_main_cst_27_apply, val_main_cst_26_apply]
  have hs : ∀ k : Fin 64, (val_main_v132 (F := Ideal) x0 x1 x2 x3 x4 x5 x6 x7 x8 x9 x10 x11 x12 x13 x14) (idx_main_v133 (idx_main_v134 (ix2 p u)) k)
      = resid (n := 100000) (val_main_v105 (F := Ideal) x0 x1 x2 x3 x4 x5 x6 x7 x11 x12 x13 x14) (val_main_v124 (F := Ideal) x0 x1 x2 x3 x4 x5 x6 x7 x11 x12 x13 x14) x8 x10 (vec x9) p k * resid (n := 100000) (val_main_v105 (F := Ideal) x0 x1 x2 x3 x4 x5 x6 x7 x11 x12 x13 x14) (val_main_v124 (F := Ideal) x0 x1 x2 x3 x4 x5 x6 x7 x11 x12 x13 x14) x8 x10 (vec x9) p k := by
    intro k
    have e : idx_main_v133 (idx_main_v134 (ix2 p u)) k = ix2 p k := funext fun a => Fin.ext (by match a with | ⟨0, _⟩ => rfl | ⟨1, _⟩ => rfl)
    rw [e, val_main_v132_apply, resid3]
    simp only [Ideal.mulf_def]
  rw [Finset.sum_congr rfl (fun k _ => hs k)]
  unfold rowLen
  simp only [Ideal.maximumf_def, Ideal.hostUnary_sqrt_def, Ideal.ofBits_def, Ideal.ofBits_zero_f32, zero_add]

/-- The last layer of the reference, as one array. -/
theorem layer3 : val_main_v139 (F := Ideal) x0 x1 x2 x3 x4 x5 x6 x7 x8 x9 x10 x11 x12 x13 x14 = finLayer (n := 100000) (val_main_v105 (F := Ideal) x0 x1 x2 x3 x4 x5 x6 x7 x11 x12 x13 x14) (val_main_v124 (F := Ideal) x0 x1 x2 x3 x4 x5 x6 x7 x11 x12 x13 x14) x8 x10 (vec x9) := by
  funext i
  obtain ⟨p, q, rfl⟩ : ∃ (p : Fin 100000) (q : Fin 64), i = ix2 p q := ⟨i 0, i 1, eq_ix2 i⟩
  rw [val_main_v139_apply, val_main_v138_apply, resid3]
  have e : idx_main_v138 (ix2 p q) = ix2 p (0 : Fin 1) := funext fun a => Fin.ext (by match a with | ⟨0, _⟩ => rfl | ⟨1, _⟩ => rfl)
  rw [e, len3]
  generalize val_main_v124 (F := Ideal) x0 x1 x2 x3 x4 x5 x6 x7 x11 x12 x13 x14 = A
  generalize val_main_v105 (F := Ideal) x0 x1 x2 x3 x4 x5 x6 x7 x11 x12 x13 x14 = H
  rfl

/-! ## The neighbourhood means are one function of the layer's input and the index array -/

/-- Layer 2's neighbourhood means are those of layer 1's output. -/
theorem aggr2 : val_main_v73 (F := Ideal) x0 x1 x2 x3 x4 x11 x12 = val_main_v22 (F := Ideal) (val_main_v54 (F := Ideal) x0 x1 x2 x3 x4 x11 x12) x1 := rfl

/-- Layer 3's neighbourhood means are those of layer 2's output. -/
theorem aggr3 : val_main_v124 (F := Ideal) x0 x1 x2 x3 x4 x5 x6 x7 x11 x12 x13 x14 = val_main_v22 (F := Ideal) (val_main_v105 (F := Ideal) x0 x1 x2 x3 x4 x5 x6 x7 x11 x12 x13 x14) x1 := rfl

/-- The first middle layer of the arguments. -/
def spec1 : Mat 100000 64 :=
  midLayer (n := 100000) x0 (val_main_v22 (F := Ideal) x0 x1) x2 x4 (vec x3) (vec x11) (vec x12)

/-- The second middle layer. -/
def spec2 : Mat 100000 64 :=
  midLayer (n := 100000) (spec1 x0 x1 x2 x3 x4 x11 x12) (val_main_v22 (F := Ideal) (spec1 x0 x1 x2 x3 x4 x11 x12) x1) x5 x7 (vec x6) (vec x13) (vec x14)

/-- THE REFERENCE'S RESULT as one function of the arguments: the last layer of the second middle layer of the first. -/
theorem whole : val_main_v139 (F := Ideal) x0 x1 x2 x3 x4 x5 x6 x7 x8 x9 x10 x11 x12 x13 x14
    = finLayer (n := 100000) (spec2 x0 x1 x2 x3 x4 x5 x6 x7 x11 x12 x13 x14)
        (val_main_v22 (F := Ideal) (spec2 x0 x1 x2 x3 x4 x5 x6 x7 x11 x12 x13 x14) x1) x8 x10 (vec x9) := by
  rw [layer3, aggr3, layer2, aggr2, layer1]
  rfl

end Layer3

end Cert.ReferenceIdeal.Layers

end
-- ==== Proof.lean ====
/-
  The certificate: a three-layer mean-aggregation graph network (two middle layers with row normalisation, a last
  layer with rows scaled to unit length) as three TensorCore kernels among host gather / scatter-add stretches,
  against the same network written as one host program.

  At exact arithmetic both programs compute, from the node features x, the index array and the weights,
      h₁ = mid(x, A(x)),   h₂ = mid(h₁, A(h₁)),   out = fin(h₂, A(h₂)),
  where A is the neighbourhood mean along the edges (the same host operations in both programs, carried as one
  function and never opened), mid a middle layer and fin the last layer, entry by entry (Proof/SageSpec.lean).
  The kernel side: what each kernel stores, at an entry (Proof/KPay.lean); from the ten stored blocks to the region's
  output array (Proof/KBlocks.lean); the buffers at the three region entries (Proof/KStages.lean); the whole run with
  the result read (Proof/KRun.lean). The reference side: its operations read window by window (Proof/RefValue.lean)
  and its stage functions read layer by layer (Proof/RefLayers.lean). Two laws join the sides: sums of extended reals
  may be taken in either order, and the product with the reciprocal of a positive lower-bounded length is the
  quotient by it. The frames of the two kernel programs are the generated ones; the reference's frame is its run.
  Nothing was rewritten by the ideal pass, so the idealization claim is trivial.
-/
import proofs.«170888_j42030549959220_1_alg».proof.Defs
import proofs.«170888_j42030549959220_1_alg».proof.Proof.Gen.Kernel
import proofs.«170888_j42030549959220_1_alg».proof.Proof.Gen.Kernel.Frame
import proofs.«170888_j42030549959220_1_alg».proof.Proof.Gen.KernelIdeal
import proofs.«170888_j42030549959220_1_alg».proof.Proof.Gen.KernelIdeal.Frame
import proofs.«170888_j42030549959220_1_alg».proof.Proof.Gen.ReferenceIdeal
import proofs.«170888_j42030549959220_1_alg».proof.Proof.Gen.Pre_finite_inputs
import proofs.«170888_j42030549959220_1_alg».proof.Proof.KRun
import proofs.«170888_j42030549959220_1_alg».proof.Proof.KStages
import proofs.«170888_j42030549959220_1_alg».proof.Proof.RefValue
import proofs.«170888_j42030549959220_1_alg».proof.Proof.RefLayers

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Both programs end with the last layer of the second middle layer of the first, of arguments that agree. -/
theorem algebraic : Cert.algebraic_KernelIdeal_ReferenceIdeal := by
  intro m ρ m' ρ' _ hagree
  refine ⟨fun c => Cert.KernelIdeal.Stages.out m c, ?_, ?_⟩
  · exact (θ_run Cert.KernelIdeal.defs _ _).mono
      (fun r h c => ⟨(h c).1.trans (Cert.KernelIdeal.Stages.result m ρ c), (h c).2⟩)
      (Cert.KernelIdeal.Whole.run_result m ρ)
  · refine (θ_run Cert.ReferenceIdeal.defs _ _).mono (fun r h c => ⟨(h c).1.trans ?_, (h c).2⟩)
      (Cert.ReferenceIdeal.RefValue.run m' ρ')
    obtain ⟨g0, g1, g2, g3, g4, g5, g6, g7, g8, g9, g10, g11, g12, g13, g14⟩ := hagree c
    rw [g0, g1, g2, g3, g4, g5, g6, g7, g8, g9, g10, g11, g12, g13, g14, Cert.ReferenceIdeal.Layers.whole]
    unfold Cert.KernelIdeal.Stages.out Cert.KernelIdeal.Stages.h2 Cert.KernelIdeal.Stages.h1
      Cert.ReferenceIdeal.Layers.spec2 Cert.ReferenceIdeal.Layers.spec1
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
